-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)) (v1 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_v2) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_v14) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x4096x3 : Shape := ⟨3, ![8, 4096, 3]⟩
abbrev S_ : Shape := ⟨0, ![]⟩

class Facts : Prop where
  bcast_S_S8x4096x3 : S_.BroadcastsInDim S8x4096x3 (![] : Fin 0 → Fin S8x4096x3.rank)
  reducesTo_S8x4096x3_S_d0_1_2 : S8x4096x3.ReducesTo [0, 1, 2] S_
  h_S_ : 0 < S_.numel

variable [Facts]

def fn {F : FTy → Type} [FloatOps F] (main_arg0 : FVec F S8x4096x3 .f32) (main_arg1 : FVec F S8x4096x3 .f32) : IVec S_ 1 :=
  let main_v0 : FVec F S8x4096x3 .f32 := Host.absf main_arg0
  let main_cst : FVec F S_ .f32 := constant S_ .f32 0x7F800000#32
  let main_v1 : FVec F S8x4096x3 .f32 := broadcastInDim S8x4096x3 ![] bcast_S_S8x4096x3 main_cst
  let main_v2 : IVec S8x4096x3 1 := cmpf .olt main_v0 main_v1
  let main_c : IVec S_ 1 := constantI S_ 1 1#1
  let main_v3 : IVec S_ 1 := (fun x v => Host.reduce IntOp.andi x v reducesTo_S8x4096x3_S_d0_1_2 h_S_) main_v2 main_c
  let main_v4 : FVec F S8x4096x3 .f32 := Host.absf main_arg1
  let main_cst_0 : FVec F S_ .f32 := constant S_ .f32 0x7F800000#32
  let main_v5 : FVec F S8x4096x3 .f32 := broadcastInDim S8x4096x3 ![] bcast_S_S8x4096x3 main_cst_0
  let main_v6 : IVec S8x4096x3 1 := cmpf .olt main_v4 main_v5
  let main_c_1 : IVec S_ 1 := constantI S_ 1 1#1
  let main_v7 : IVec S_ 1 := (fun x v => Host.reduce IntOp.andi x v reducesTo_S8x4096x3_S_d0_1_2 h_S_) main_v6 main_c_1
  let main_v8 : IVec S_ 1 := andi main_v3 main_v7
  main_v8
-- ==== Kernel.lean ====
abbrev S8x4096x3 : Shape := ⟨3, ![8, 4096, 3]⟩
abbrev S8x1x4096 : Shape := ⟨3, ![8, 1, 4096]⟩
abbrev S1x4096x3 : Shape := ⟨3, ![1, 4096, 3]⟩
abbrev S1x1024x3 : Shape := ⟨3, ![1, 1024, 3]⟩
abbrev S1x1x4096 : Shape := ⟨3, ![1, 1, 4096]⟩
abbrev S1x1x1024 : Shape := ⟨3, ![1, 1, 1024]⟩
abbrev S4096x128 : Shape := ⟨2, ![4096, 128]⟩
abbrev S4096x3 : Shape := ⟨2, ![4096, 3]⟩
abbrev S1024x3 : Shape := ⟨2, ![1024, 3]⟩
abbrev S1024 : Shape := ⟨1, ![1024]⟩
abbrev S4096 : Shape := ⟨1, ![4096]⟩
abbrev S4096x1 : Shape := ⟨2, ![4096, 1]⟩
abbrev S4096x1024 : Shape := ⟨2, ![4096, 1024]⟩
abbrev S1x1024 : Shape := ⟨2, ![1, 1024]⟩
abbrev S8x4096 : Shape := ⟨2, ![8, 4096]⟩

abbrev nBuf : Space → Nat
  | .hbm => 6
  | .vmem => 9
  | .smem => 0
  | _ => 0

abbrev bufTy : (tb : Table) → Fin (tcTables nBuf tb) → BufTy
  | .hbm, ⟨0, _⟩ => ⟨S8x4096x3, .f32⟩
  | .hbm, ⟨1, _⟩ => ⟨S8x4096x3, .f32⟩
  | .hbm, ⟨2, _⟩ => ⟨S8x1x4096, .f32⟩
  | .hbm, ⟨3, _⟩ => ⟨S8x1x4096, .f32⟩
  | .hbm, ⟨4, _⟩ => ⟨S8x4096, .f32⟩
  | .hbm, ⟨5, _⟩ => ⟨S8x4096, .f32⟩
  | .local _ .vmem, ⟨0, _⟩ => ⟨S1x4096x3, .f32⟩
  | .local _ .vmem, ⟨1, _⟩ => ⟨S1x4096x3, .f32⟩
  | .local _ .vmem, ⟨2, _⟩ => ⟨S1x1024x3, .f32⟩
  | .local _ .vmem, ⟨3, _⟩ => ⟨S1x1024x3, .f32⟩
  | .local _ .vmem, ⟨4, _⟩ => ⟨S1x1x4096, .f32⟩
  | .local _ .vmem, ⟨5, _⟩ => ⟨S1x1x4096, .f32⟩
  | .local _ .vmem, ⟨6, _⟩ => ⟨S1x1x1024, .f32⟩
  | .local _ .vmem, ⟨7, _⟩ => ⟨S1x1x1024, .f32⟩
  | .local _ .vmem, ⟨8, _⟩ => ⟨S4096x128, .f32⟩
  | _, _ => ⟨S8x4096x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 4], ![false, false]⟩

def k0_cond3 (i : grid0.Coords) : BitVec 1 :=
  let arg1 : BitVec 32 := BitVec.ofNat 32 (i 1).val
  let c3_i32 : BitVec 32 := 3#32
  let v42 : BitVec 1 := Scalar.cmpi .eq arg1 c3_i32
  let v43 : BitVec 32 := Scalar.extui v42
  let c0_i32_15 : BitVec 32 := 0#32
  let v44 : BitVec 1 := Scalar.cmpi .ne v43 c0_i32_15
  v44

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x4096x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1024x3 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  inb_S1x4096x3_S1x4096x3_0_0_0 : ∀ a, (![0, 0, 0] : Fin 3 → Nat) a + S1x4096x3.size a ≤ S1x4096x3.size a
  h_S1x4096x3 : 0 < S1x4096x3.numel
  shapeCasts_S1x4096x3_S4096x3 : S1x4096x3.ShapeCasts S4096x3
  inb_S1x1024x3_S1x1024x3_0_0_0 : ∀ a, (![0, 0, 0] : Fin 3 → Nat) a + S1x1024x3.size a ≤ S1x1024x3.size a
  h_S1x1024x3 : 0 < S1x1024x3.numel
  shapeCasts_S1x1024x3_S1024x3 : S1x1024x3.ShapeCasts S1024x3
  reduces_S1024x3_S1024 : S1024x3.Reduces [1] S1024
  reduces_S4096x3_S4096 : S4096x3.Reduces [1] S4096
  shapeCasts_S4096_S4096x1 : S4096.ShapeCasts S4096x1
  shapeCasts_S1024_S1x1024 : S1024.ShapeCasts S1x1024
  broadcasts_S4096x1_S4096x1024 : S4096x1.Broadcasts S4096x1024
  broadcasts_S1x1024_S4096x1024 : S1x1024.Broadcasts S4096x1024
  slices_S4096x1024_o0_0_S4096x128 : S4096x1024.Slices ![0, 0] S4096x128
  slices_S4096x1024_o0_128_S4096x128 : S4096x1024.Slices ![0, 128] S4096x128
  slices_S4096x1024_o0_256_S4096x128 : S4096x1024.Slices ![0, 256] S4096x128
  slices_S4096x1024_o0_384_S4096x128 : S4096x1024.Slices ![0, 384] S4096x128
  slices_S4096x1024_o0_512_S4096x128 : S4096x1024.Slices ![0, 512] S4096x128
  slices_S4096x1024_o0_640_S4096x128 : S4096x1024.Slices ![0, 640] S4096x128
  slices_S4096x1024_o0_768_S4096x128 : S4096x1024.Slices ![0, 768] S4096x128
  slices_S4096x1024_o0_896_S4096x128 : S4096x1024.Slices ![0, 896] S4096x128
  reduces_S4096x1024_S1024 : S4096x1024.Reduces [0] S1024
  inb_S1x1x1024_S1x1x1024_0_0_0 : ∀ a, (![0, 0, 0] : Fin 3 → Nat) a + S1x1x1024.size a ≤ S1x1x1024.size a
  h_S1x1x1024 : 0 < S1x1x1024.numel
  shapeCasts_S1x1x1024_S1024 : S1x1x1024.ShapeCasts S1024
  shapeCasts_S1024_S1x1x1024 : S1024.ShapeCasts S1x1x1024
  inb_S4096x128_S4096x128_0_0 : ∀ a, (![0, 0] : Fin 2 → Nat) a + S4096x128.size a ≤ S4096x128.size a
  h_S4096x128 : 0 < S4096x128.numel
  shapeCasts_S4096x128_S4096x128 : S4096x128.ShapeCasts S4096x128
  reduces_S4096x128_S4096 : S4096x128.Reduces [1] S4096
  inb_S1x1x4096_S1x1x4096_0_0_0 : ∀ a, (![0, 0, 0] : Fin 3 → Nat) a + S1x1x4096.size a ≤ S1x1x4096.size a
  h_S1x1x4096 : 0 < S1x1x4096.numel
  shapeCasts_S1x1x4096_S4096 : S1x1x4096.ShapeCasts S4096
  shapeCasts_S4096_S1x1x4096 : S4096.ShapeCasts S1x1x4096
  shapeCasts_S8x1x4096_S8x4096 : S8x1x4096.ShapeCasts S8x4096
  dot_S4096x3_S1024x3_S4096x1024_1_1_0_0_n_n_wf : DotDims.WF S4096x3 S1024x3 S4096x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x4096x3.size a ≤ S8x4096x3.size a
  hwx0_0 : ∀ i : grid0.Coords, EltTy.bits .f32 = 32 ∨ (Rect.block (s := S8x4096x3) S1x4096x3.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1024x3.size a ≤ S8x4096x3.size a
  hwx0_1 : ∀ i : grid0.Coords, EltTy.bits .f32 = 32 ∨ (Rect.block (s := S8x4096x3) S1x1024x3.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x4096.size a ≤ S8x1x4096.size a
  hwx0_2 : ∀ i : grid0.Coords, EltTy.bits .f32 = 32 ∨ (Rect.block (s := S8x1x4096) S1x1x4096.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x1024.size a ≤ S8x1x4096.size a
  hwx0_3 : ∀ i : grid0.Coords, EltTy.bits .f32 = 32 ∨ (Rect.block (s := S8x1x4096) S1x1x1024.size (cc0_transform_3 i) (hinb0_3 i)).WholeWords (EltTy.packing .f32)

variable [Facts₀]

def dot_S4096x3_S1024x3_S4096x1024_1_1_0_0_n_n : DotDims S4096x3 S1024x3 S4096x1024 where
  lhsContracting := [1]
  rhsContracting := [1]
  lhsNonContracting := [0]
  rhsNonContracting := [0]
  lhsBatch := []
  rhsBatch := []
  wf := dot_S4096x3_S1024x3_S4096x1024_1_1_0_0_n_n_wf

abbrev win0_0 : Pipeline.Window sig grid0 :=
  Pipeline.Window.ofSpec (Memref.whole main_arg0) S1x4096x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x1024x3.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0_0) S1x1x4096.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0_1) S1x1x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun i => !(k0_cond3 i == 1#1) | 3 => fun _ => false | ⟨_ + 4, h⟩ => absurd h (Nat.not_lt.2 (Nat.le_add_left _ _))

class Facts : Prop extends Facts₀ where

variable [Facts]
-- ==== ReferenceIdeal.lean ====
abbrev S8x4096x3 : Shape := ⟨3, ![8, 4096, 3]⟩
abbrev S_ : Shape := ⟨0, ![]⟩
abbrev S8x4096 : Shape := ⟨2, ![8, 4096]⟩
abbrev S8x4096x4096 : Shape := ⟨3, ![8, 4096, 4096]⟩
abbrev S8x4096x1 : Shape := ⟨3, ![8, 4096, 1]⟩
abbrev S8x1x4096 : Shape := ⟨3, ![8, 1, 4096]⟩

abbrev nBuf : Space → Nat
  | .hbm => 22
  | .vmem => 0
  | .smem => 0
  | _ => 0

abbrev bufTy : (tb : Table) → Fin (tcTables nBuf tb) → BufTy
  | .hbm, ⟨0, _⟩ => ⟨S8x4096x3, .f32⟩
  | .hbm, ⟨1, _⟩ => ⟨S8x4096x3, .f32⟩
  | .hbm, ⟨2, _⟩ => ⟨S8x4096x3, .f32⟩
  | .hbm, ⟨3, _⟩ => ⟨S_, .f32⟩
  | .hbm, ⟨4, _⟩ => ⟨S8x4096, .f32⟩
  | .hbm, ⟨5, _⟩ => ⟨S8x4096x3, .f32⟩
  | .hbm, ⟨6, _⟩ => ⟨S_, .f32⟩
  | .hbm, ⟨7, _⟩ => ⟨S8x4096, .f32⟩
  | .hbm, ⟨8, _⟩ => ⟨S8x4096x4096, .f32⟩
  | .hbm, ⟨9, _⟩ => ⟨S8x4096x1, .f32⟩
  | .hbm, ⟨10, _⟩ => ⟨S8x1x4096, .f32⟩
  | .hbm, ⟨11, _⟩ => ⟨S8x4096x4096, .f32⟩
  | .hbm, ⟨12, _⟩ => ⟨S8x4096x4096, .f32⟩
  | .hbm, ⟨13, _⟩ => ⟨S8x4096x4096, .f32⟩
  | .hbm, ⟨14, _⟩ => ⟨S_, .f32⟩
  | .hbm, ⟨15, _⟩ => ⟨S8x4096x4096, .f32⟩
  | .hbm, ⟨16, _⟩ => ⟨S8x4096x4096, .f32⟩
  | .hbm, ⟨17, _⟩ => ⟨S8x4096x4096, .f32⟩
  | .hbm, ⟨18, _⟩ => ⟨S_, .f32⟩
  | .hbm, ⟨19, _⟩ => ⟨S8x4096, .f32⟩
  | .hbm, ⟨20, _⟩ => ⟨S_, .f32⟩
  | .hbm, ⟨21, _⟩ => ⟨S8x4096, .f32⟩
  | _, _ => ⟨S8x4096x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_2 : Ref sig .tc := ⟨.hbm, 18, rfl⟩
abbrev main_v13 : Ref sig .tc := ⟨.hbm, 19, rfl⟩
abbrev main_cst_3 : Ref sig .tc := ⟨.hbm, 20, rfl⟩
abbrev main_v14 : Ref sig .tc := ⟨.hbm, 21, rfl⟩

abbrev nD : Nat := 1
abbrev τ : Topo := Topo.v7x

variable {F : FTy → Type} [FloatOps F]

class Facts₀ : Prop where
  reducesTo_S8x4096x3_S8x4096_d2 : S8x4096x3.ReducesTo [2] S8x4096
  h_S_ : 0 < S_.numel
  bcast_S8x4096_S8x4096x1_0_1 : S8x4096.BroadcastsInDim S8x4096x1 (![0, 1] : Fin 2 → Fin S8x4096x1.rank)
  bcast_S8x4096_S8x1x4096_0_2 : S8x4096.BroadcastsInDim S8x1x4096 (![0, 2] : Fin 2 → Fin S8x1x4096.rank)
  bcast_S8x4096x1_S8x4096x4096_0_1_2 : S8x4096x1.BroadcastsInDim S8x4096x4096 (![0, 1, 2] : Fin 3 → Fin S8x4096x4096.rank)
  bcast_S8x1x4096_S8x4096x4096_0_1_2 : S8x1x4096.BroadcastsInDim S8x4096x4096 (![0, 1, 2] : Fin 3 → Fin S8x4096x4096.rank)
  bcast_S_S8x4096x4096 : S_.BroadcastsInDim S8x4096x4096 (![] : Fin 0 → Fin S8x4096x4096.rank)
  reducesTo_S8x4096x4096_S8x4096_d2 : S8x4096x4096.ReducesTo [2] S8x4096
  reducesTo_S8x4096x4096_S8x4096_d1 : S8x4096x4096.ReducesTo [1] S8x4096
  dot_S8x4096x3_S8x4096x3_S8x4096x4096_2_2_1_1_0_0_wf : DotDims.WF S8x4096x3 S8x4096x3 S8x4096x4096 [2] [2] [1] [1] [0] [0]

variable [Facts₀]

def dot_S8x4096x3_S8x4096x3_S8x4096x4096_2_2_1_1_0_0 : DotDims S8x4096x3 S8x4096x3 S8x4096x4096 where
  lhsContracting := [2]
  rhsContracting := [2]
  lhsNonContracting := [1]
  rhsNonContracting := [1]
  lhsBatch := [0]
  rhsBatch := [0]
  wf := dot_S8x4096x3_S8x4096x3_S8x4096x4096_2_2_1_1_0_0_wf

class Facts : Prop extends Facts₀ where

variable [Facts]
-- ==== Proof.K.Steps.lean ====
/-
  The kernel body at one grid point. The grid is eight batches of four steps; at each step the body sees the whole block
  of the first cloud's batch and 1024 points of the second cloud. It stores the step's column minima of the squared
  distances, and keeps the running row minima, 128 lanes wide, in a scratch buffer that lives across the four steps of a
  batch: set at the first step, lowered at the later ones, and reduced to the batch's row minima at the last. The three
  theorems run the body in the three kinds of step and say what each buffer holds afterwards as a pure function of what
  it was handed.
-/
import proofs.«180873_g88837103551002_cont_sun_m_1114_24_alg».proof.Proof.Gen.Kernel.Frame
import proofs.«180873_g88837103551002_cont_sun_m_1114_24_alg».proof.Proof.Gen.Kernel.Skeleton
import Idealize.ShloMosaic.Lib.Pipeline.Value

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

theorem hz3 : (![0, 0, 0] : Fin 3 → ℕ) = fun _ => 0 := by funext a; fin_cases a <;> rfl
theorem hz2 : (![0, 0] : Fin 2 → ℕ) = fun _ => 0 := by funext a; fin_cases a <;> rfl

/-- What one whole-buffer store leaves in a buffer reads back as the stored value, whatever was there before. -/
theorem read_store_whole {S : Shape} (a : Memref sig .tc .vmem S .f32) (f : a.view.ty.Contents (Elt F))
    {off : Fin S.rank → ℕ} (hz : off = fun _ => 0) (inb : ∀ k, off k + S.size k ≤ S.size k) (w : S.Idx → Elt F .f32) :
    a.view.read (Elt F) (a.view.writes (Elt F) f [⟨Rect.unit off S.size inb, w⟩]) = w := by
  rw [View.read_writes_eq_canon _ _ _ (fun y => ⟨_, List.mem_singleton_self _, View.mem_set_unit_zero hz inb y⟩)]
  exact View.canon_unit_zero hz inb w

/-- A whole-buffer load of a whole buffer that reads `x` reads `x`. -/
theorem load_whole {S : Shape} (a : Memref sig .tc .vmem S .f32) (h : a.IsWhole)
    {off : Fin S.rank → ℕ} (hz : off = fun _ => 0) (inb : ∀ k, off k + S.size k ≤ S.size k) (x : S.Idx → Elt F .f32) :
    View.readAt (Elt F) a.view (Rect.unit off S.size inb).toLoadRect (h.unread x) = x := by
  show View.ld (a.view.read (Elt F) (h.unread x)) (Rect.unit off S.size inb) = x
  rw [h.read_unread]; exact View.ld_unit_zero hz inb x

/-- The body's three conditions, as it computes them from the point's second coordinate `j`: `j = 0`, `j ≠ 0`, `j = 3`. -/
abbrev condFirst (i : grid0.Coords) : Prop :=
  (Scalar.cmpi .ne (Scalar.extui (Scalar.cmpi .eq (BitVec.ofNat 32 (i 1).val) 0#32)) 0#32) = 1#1
abbrev condLater (i : grid0.Coords) : Prop :=
  (Scalar.cmpi .ne (Scalar.extui (Scalar.cmpi .ne (BitVec.ofNat 32 (i 1).val) 0#32)) 0#32) = 1#1
abbrev condLast (i : grid0.Coords) : Prop := k0_cond3 i = 1#1

/-- In which of its batch's four steps a point lies, from its position in the grid's order (eight batches of four steps). -/
theorem first_iff : ∀ t : Fin cfg0.N, condFirst (grid0.coords t) ↔ t.val % 4 = 0 :=
  (by decide +kernel : ∀ t : Fin grid0.N, condFirst (grid0.coords t) ↔ t.val % 4 = 0)
theorem later_iff : ∀ t : Fin cfg0.N, condLater (grid0.coords t) ↔ ¬t.val % 4 = 0 :=
  (by decide +kernel : ∀ t : Fin grid0.N, condLater (grid0.coords t) ↔ ¬t.val % 4 = 0)
theorem last_iff : ∀ t : Fin cfg0.N, condLast (grid0.coords t) ↔ t.val % 4 = 3 :=
  (by decide +kernel : ∀ t : Fin grid0.N, condLast (grid0.coords t) ↔ t.val % 4 = 3)

/-! ## The body at a point, in each of the three kinds of step

The body reads the whole block of `x`'s batch and the step's 1024 points of `y`, stores the column minima, and keeps the
running row minima, 128 lanes wide, in its scratch: set at a batch's first step, lowered at the later ones, and reduced
to the row minima at the last. -/

theorem runFirst (c : Dev nD) (i : grid0.Coords)
    (a2 : Memref sig .tc .vmem S1x4096x3 .f32) (h2 : a2.IsWhole) (a3 : Memref sig .tc .vmem S1x1024x3 .f32) (h3 : a3.IsWhole)
    (a4 : Memref sig .tc .vmem S1x1x4096 .f32) (h4 : a4.IsWhole) (a5 : Memref sig .tc .vmem S1x1x1024 .f32) (h5 : a5.IsWhole)
    (a6 : Memref sig .tc .vmem S4096x128 .f32) (h6 : a6.IsWhole)
    (hc1 : condFirst i) (hc2 : ¬condLater i) (hc3 : ¬condLast i)
    (x0 : Vec F S1x4096x3 .f32) (x1 : Vec F S1x1024x3 .f32) (xi : Vec F S1x1x4096 .f32) (E : Set ℕ) (K : PUnit → sProp 𝕄) :
    iprop(owns (c : Thread nD τ) a2 fullShare x0 ∗ owns (c : Thread nD τ) a3 fullShare x1 ∗ owns (c : Thread nD τ) a4 fullShare xi
        ∗ (∃ d, owns (c : Thread nD τ) a5 fullShare d) ∗ (∃ d, owns (c : Thread nD τ) a6 fullShare d)
        ∗ (iprop(owns (c : Thread nD τ) a2 fullShare x0 ∗ owns (c : Thread nD τ) a3 fullShare x1 ∗ owns (c : Thread nD τ) a4 fullShare xi
            ∗ owns (c : Thread nD τ) a5 fullShare (k0_pay5 x0 x1) ∗ owns (c : Thread nD τ) a6 fullShare (k0_pay6 x0 x1)) -∗ K ⟨⟩))
      ⊢ wp frame (wpE (defs₀ (F := F)) Variants.none c none) E (cc0__chamfer_body i a2 h2 a3 h3 a4 h4 a5 h5 a6 h6) K := by
  simp only [cc0__chamfer_body_eq_skeleton]; unfold cc0__chamfer_body_skel
  simp only [k0_part1_eq_skeleton]; unfold k0_part1_skel
  unfold owns
  iintro ⟨⟨%f0, %hf0, H0⟩, ⟨%f1, %hf1, H1⟩, ⟨%f2, %hf2, H2⟩, ⟨%d3, %f3, -, H3⟩, ⟨%d6, %f6, -, H6⟩, Hk⟩
  obtain rfl := h2.eq_unread hf0; obtain rfl := h3.eq_unread hf1; obtain rfl := h4.eq_unread hf2
  sl_exec (disch := first | exact hc1 | exact hc2 | exact hc3)
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  isplitl [H3]
  · iexists _; isplitr
    swap; · iexact H3
    ipureintro
    rw [read_store_whole a5 f3 hz3, load_whole a2 h2 hz3, load_whole a3 h3 hz3]
  iexists _; isplitr
  swap; · iexact H6
  ipureintro
  rw [read_store_whole a6 f6 hz2, load_whole a2 h2 hz3, load_whole a3 h3 hz3]

theorem runLater (c : Dev nD) (i : grid0.Coords)
    (a2 : Memref sig .tc .vmem S1x4096x3 .f32) (h2 : a2.IsWhole) (a3 : Memref sig .tc .vmem S1x1024x3 .f32) (h3 : a3.IsWhole)
    (a4 : Memref sig .tc .vmem S1x1x4096 .f32) (h4 : a4.IsWhole) (a5 : Memref sig .tc .vmem S1x1x1024 .f32) (h5 : a5.IsWhole)
    (a6 : Memref sig .tc .vmem S4096x128 .f32) (h6 : a6.IsWhole)
    (hc1 : ¬condFirst i) (hc2 : condLater i) (hc3 : ¬condLast i)
    (x0 : Vec F S1x4096x3 .f32) (x1 : Vec F S1x1024x3 .f32) (xi : Vec F S1x1x4096 .f32) (xs : Vec F S4096x128 .f32)
    (E : Set ℕ) (K : PUnit → sProp 𝕄) :
    iprop(owns (c : Thread nD τ) a2 fullShare x0 ∗ owns (c : Thread nD τ) a3 fullShare x1 ∗ owns (c : Thread nD τ) a4 fullShare xi
        ∗ (∃ d, owns (c : Thread nD τ) a5 fullShare d) ∗ owns (c : Thread nD τ) a6 fullShare xs
        ∗ (iprop(owns (c : Thread nD τ) a2 fullShare x0 ∗ owns (c : Thread nD τ) a3 fullShare x1 ∗ owns (c : Thread nD τ) a4 fullShare xi
            ∗ owns (c : Thread nD τ) a5 fullShare (k0_pay5 x0 x1) ∗ owns (c : Thread nD τ) a6 fullShare (k0_pay1 (k0_pay4 x0 x1) xs)) -∗ K ⟨⟩))
      ⊢ wp frame (wpE (defs₀ (F := F)) Variants.none c none) E (cc0__chamfer_body i a2 h2 a3 h3 a4 h4 a5 h5 a6 h6) K := by
  simp only [cc0__chamfer_body_eq_skeleton]; unfold cc0__chamfer_body_skel
  simp only [k0_part1_eq_skeleton]; unfold k0_part1_skel
  unfold owns
  iintro ⟨⟨%f0, %hf0, H0⟩, ⟨%f1, %hf1, H1⟩, ⟨%f2, %hf2, H2⟩, ⟨%d3, %f3, -, H3⟩, ⟨%f6, %hf6, H6⟩, Hk⟩
  obtain rfl := h2.eq_unread hf0; obtain rfl := h3.eq_unread hf1; obtain rfl := h4.eq_unread hf2
  obtain rfl := h6.eq_unread hf6
  sl_exec (disch := first | exact hc1 | exact hc2 | exact hc3)
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  isplitl [H3]
  · iexists _; isplitr
    swap; · iexact H3
    ipureintro
    rw [read_store_whole a5 f3 hz3, load_whole a2 h2 hz3, load_whole a3 h3 hz3]
  iexists _; isplitr
  swap; · iexact H6
  ipureintro
  sl_unfold_run_names
  rw [read_store_whole a6 _ hz2, load_whole a2 h2 hz3, load_whole a3 h3 hz3, load_whole a6 h6 hz2]

theorem runLast (c : Dev nD) (i : grid0.Coords)
    (a2 : Memref sig .tc .vmem S1x4096x3 .f32) (h2 : a2.IsWhole) (a3 : Memref sig .tc .vmem S1x1024x3 .f32) (h3 : a3.IsWhole)
    (a4 : Memref sig .tc .vmem S1x1x4096 .f32) (h4 : a4.IsWhole) (a5 : Memref sig .tc .vmem S1x1x1024 .f32) (h5 : a5.IsWhole)
    (a6 : Memref sig .tc .vmem S4096x128 .f32) (h6 : a6.IsWhole)
    (hc1 : ¬condFirst i) (hc2 : condLater i) (hc3 : condLast i)
    (x0 : Vec F S1x4096x3 .f32) (x1 : Vec F S1x1024x3 .f32) (xs : Vec F S4096x128 .f32) (E : Set ℕ) (K : PUnit → sProp 𝕄) :
    iprop(owns (c : Thread nD τ) a2 fullShare x0 ∗ owns (c : Thread nD τ) a3 fullShare x1 ∗ (∃ d, owns (c : Thread nD τ) a4 fullShare d)
        ∗ (∃ d, owns (c : Thread nD τ) a5 fullShare d) ∗ owns (c : Thread nD τ) a6 fullShare xs
        ∗ (iprop(owns (c : Thread nD τ) a2 fullShare x0 ∗ owns (c : Thread nD τ) a3 fullShare x1
            ∗ owns (c : Thread nD τ) a4 fullShare (k0_pay2 (k0_pay1 (k0_pay4 x0 x1) xs))
            ∗ owns (c : Thread nD τ) a5 fullShare (k0_pay5 x0 x1) ∗ owns (c : Thread nD τ) a6 fullShare (k0_pay1 (k0_pay4 x0 x1) xs)) -∗ K ⟨⟩))
      ⊢ wp frame (wpE (defs₀ (F := F)) Variants.none c none) E (cc0__chamfer_body i a2 h2 a3 h3 a4 h4 a5 h5 a6 h6) K := by
  simp only [cc0__chamfer_body_eq_skeleton]; unfold cc0__chamfer_body_skel
  simp only [k0_part1_eq_skeleton]; unfold k0_part1_skel
  unfold owns
  iintro ⟨⟨%f0, %hf0, H0⟩, ⟨%f1, %hf1, H1⟩, ⟨%d2, %f2, -, H2⟩, ⟨%d3, %f3, -, H3⟩, ⟨%f6, %hf6, H6⟩, Hk⟩
  obtain rfl := h2.eq_unread hf0; obtain rfl := h3.eq_unread hf1; obtain rfl := h6.eq_unread hf6
  sl_exec (disch := first | exact hc1 | exact hc2 | exact hc3)
  sl_step
  iapply Hk
  isplitl [H0]
  · iexists _; isplitr; · ipureintro; exact hf0
    iexact H0
  isplitl [H1]
  · iexists _; isplitr; · ipureintro; exact hf1
    iexact H1
  isplitl [H2]
  · iexists _; isplitr
    swap; · iexact H2
    ipureintro
    sl_unfold_run_names
    rw [read_store_whole a4 f2 hz3, View.readCov_unit_zero a6.view hz2]
    dsimp only
    rw [load_whole a2 h2 hz3, load_whole a3 h3 hz3, load_whole a6 h6 hz2]
  isplitl [H3]
  · iexists _; isplitr
    swap; · iexact H3
    ipureintro
    rw [read_store_whole a5 f3 hz3, load_whole a2 h2 hz3, load_whole a3 h3 hz3]
  iexists _; isplitr
  swap; · iexact H6
  ipureintro
  sl_unfold_run_names
  rw [read_store_whole a6 _ hz2, load_whole a2 h2 hz3, load_whole a3 h3 hz3, load_whole a6 h6 hz2]

end Cert.Kernel.Body

end
-- ==== Proof.K.Run.lean ====
/-
  The frame of the program: it runs to the end, faults nowhere and leaves its argument arrays unchanged. The proof data
  says what every staging buffer holds after the body at each grid point — the inputs their blocks, the column-minimum
  output the step's column minima, the row-minimum output the row minima of the running lane-tile minima — and the
  invariant carries the scratch buffer from point to point at those running minima.
-/
import proofs.«180873_g88837103551002_cont_sun_m_1114_24_alg».proof.Proof.K.Steps
import Idealize.ShloMosaic.Lib.Pipeline.FrameBody
import Idealize.ShloMosaic.Lib.Pipeline.FrameSuffix

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! ## Where the windows are live

The row-minimum output (window 2) is stored, and written back, only at a batch's last step; elsewhere its buffer is
handed back as found. The other windows are live everywhere. -/

theorem live0 : ∀ t : Fin cfg0.N, cfg0.idle 0 (grid0.coords t) = false := by decide +kernel
theorem live1 : ∀ t : Fin cfg0.N, cfg0.idle 1 (grid0.coords t) = false := by decide +kernel
theorem live3 : ∀ t : Fin cfg0.N, cfg0.idle 3 (grid0.coords t) = false := by decide +kernel
theorem live2 : ∀ t : Fin cfg0.N, t.val % 4 = 3 → cfg0.idle 2 (grid0.coords t) = false := by decide +kernel
theorem idle2 : ∀ t : Fin cfg0.N, ¬t.val % 4 = 3 → cfg0.idle 2 (grid0.coords t) = true := by decide +kernel
theorem noFlush2 : ∀ t : Fin cfg0.N, ¬t.val % 4 = 3 → (cfg0.win 2).flush t = false := by decide +kernel

/-- Each window's current staging memref at point `t`, as the pipeline passes it, and the scratch. -/
abbrev ms0 (t : Fin cfg0.N) : Memref sig .tc .vmem S1x4096x3 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S1x1024x3 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1x1x4096 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x1x1024 .f32 := win0_3.stage (cfg0.slots t 3)
abbrev hs3 (t : Fin cfg0.N) : (ms3 t).IsWhole := hstage0_3 ((cfg0.slots t 3).cast nbuf0_3)
abbrev scM : Memref sig .tc .vmem S4096x128 .f32 := Memref.whole cc0_scratch0

/-- What the region may use besides its windows: the scratch at some contents and the generator register. -/
theorem PhiA_eq (c : Dev nD) :
    (Pipeline.ΦA spec0 c : sProp 𝕄)
      = iprop(iprop((∃ d, owns (c : Thread nD τ) scM fullShare d)) ∗ (∃ r, prngReg c r)) := by
  unfold Pipeline.ΦA; rw [scopedRest0_eq]; simp only [scM, owns_whole]; try rfl

variable (m : (ℓ : Loc nD τ sig) → Buf (Elt F) ℓ) (ρ : Dev nD → PrngReg)

/-! ## The running row minima, point by point -/

/-- What the scratch holds after the body at position `n` of the grid's order: at a batch's first step the step's own
    lane-tile minima, at a later step the minimum of those with what the step before left. -/
def accAt (c : Dev nD) : (n : ℕ) → n < cfg0.N → Vec F S4096x128 .f32
  | 0, hn => k0_pay6 (iblk m c 0 ⟨0, hn⟩) (iblk m c 1 ⟨0, hn⟩)
  | n + 1, hn =>
    if (n + 1) % 4 = 0 then k0_pay6 (iblk m c 0 ⟨n + 1, hn⟩) (iblk m c 1 ⟨n + 1, hn⟩)
    else k0_pay1 (k0_pay4 (iblk m c 0 ⟨n + 1, hn⟩) (iblk m c 1 ⟨n + 1, hn⟩)) (accAt c n (Nat.lt_of_succ_lt hn))

theorem accAt_first (c : Dev nD) (t : Fin cfg0.N) (h : t.val % 4 = 0) :
    accAt m c t.val t.isLt = k0_pay6 (iblk m c 0 t) (iblk m c 1 t) := by
  obtain ⟨n, hn⟩ := t
  cases n with
  | zero => rfl
  | succ n => exact if_pos h

theorem accAt_later (c : Dev nD) (t : Fin cfg0.N) (h : ¬t.val % 4 = 0) :
    accAt m c t.val t.isLt
      = k0_pay1 (k0_pay4 (iblk m c 0 t) (iblk m c 1 t)) (accAt m c (t.val - 1) (Nat.lt_of_le_of_lt (Nat.sub_le _ _) t.isLt)) := by
  obtain ⟨n, hn⟩ := t
  cases n with
  | zero => exact absurd (Nat.zero_mod _) h
  | succ n => exact (if_neg h).trans rfl

/-- The region's invariant before position `n`: before the first point the scratch holds anything; afterwards what the
    point before left. -/
def PhiS (c : Dev nD) : (n : ℕ) → n ≤ cfg0.N → sProp 𝕄
  | 0, _ => Pipeline.ΦA spec0 c
  | n + 1, hn => iprop(iprop(owns (c : Thread nD τ) scM fullShare (accAt m c n hn)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM fullShare (accAt m c n hn)) ∗ (∃ r, prngReg c r)) := rfl

theorem PhiS_pos (c : Dev nD) (n : ℕ) (h : n ≤ cfg0.N) (hz : n ≠ 0) :
    PhiS m c n h = iprop(iprop(owns (c : Thread nD τ) scM fullShare (accAt m c (n - 1) (by omega))) ∗ (∃ r, prngReg c r)) := by
  cases n with
  | zero => exact absurd rfl hz
  | succ n => rfl

/-! ## The pipeline's proof data -/

/-- The arrays as the region finds them; after the body at point `t` the inputs' buffers at their blocks, the column
    minima's at the step's column minima, the row minima's at the row minima of the running lane-tile minima. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => k0_pay2 (accAt m c t.val t.isLt)
    | ⟨3, _⟩ => k0_pay5 (iblk m c 0 t) (iblk m c 1 t)
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = k0_pay2 (accAt m c t.val t.isLt) := by dsimp only [dats]
theorem after_3 (c : Dev nD) (t : Fin cfg0.N) : (dats m 0 c).after 3 t = k0_pay5 (iblk m c 0 t) (iblk m c 1 t) := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t)

theorem leaves_0 (c : Dev nD) (t : Fin cfg0.N) :
    (dats m 0 c).leavesExact 0 t = owns (c : Thread nD τ) (ms0 t) fullShare (iblk m c 0 t) := by
  unfold Dat.leavesExact; rw [live0 t, after_0]
theorem leaves_1 (c : Dev nD) (t : Fin cfg0.N) :
    (dats m 0 c).leavesExact 1 t = owns (c : Thread nD τ) (ms1 t) fullShare (iblk m c 1 t) := by
  unfold Dat.leavesExact; rw [live1 t, after_1]
theorem leaves_3 (c : Dev nD) (t : Fin cfg0.N) :
    (dats m 0 c).leavesExact 3 t = owns (c : Thread nD τ) (ms3 t) fullShare (k0_pay5 (iblk m c 0 t) (iblk m c 1 t)) := by
  unfold Dat.leavesExact; rw [live3 t, after_3]
theorem leaves_2_last (c : Dev nD) (t : Fin cfg0.N) (h : t.val % 4 = 3) :
    (dats m 0 c).leavesExact 2 t = owns (c : Thread nD τ) (ms2 t) fullShare (k0_pay2 (accAt m c t.val t.isLt)) := by
  unfold Dat.leavesExact; rw [live2 t h, after_2]

set_option maxHeartbeats 1600000 in
/-- The body at any point: the step's kind is read off the point's position; the invariant hands the body the scratch at
    what the point before left (at anything before the first point) and takes it back at this point's contents. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1]
  rw [show (dats m 0 c).owesAt () t.succ = (dats m 0 c).owesAt () t.castSucc from rfl]
  rw [show (dats m 0 c).Φ t.succ = PhiS m c (t.val + 1) t.isLt from rfl, PhiS_succ]
  rw [leaves_0, leaves_1, leaves_3]
  have hN : t.val < 32 := lt_of_lt_of_eq t.isLt (show cfg0.N = 32 from N_0)
  by_cases h0 : t.val % 4 = 0
  · have h3 : ¬t.val % 4 = 3 := by omega
    rw [Dat.leavesExact_idle (dats m 0 c) 2 t (idle2 t h3) (noFlush2 t h3)]
    rw [accAt_first m c t h0]
    by_cases hz : t.val = 0
    · rw [PhiS_castSucc m c t, PhiS_zero m c _ _ hz, PhiA_eq]
      iintro ⟨⟨HS, Hg⟩, Ho, ⟨%d0, H0⟩, ⟨%d1, H1⟩, ⟨%d2, H2⟩, ⟨%d3, H3⟩⟩
      iapply (runFirst c (grid0.coords t) (ms0 t) (hs0 t) (ms1 t) (hs1 t) (ms2 t) (hs2 t) (ms3 t) (hs3 t) scM (Memref.isWhole_whole _)
        ((first_iff t).mpr h0) (fun h => (later_iff t).mp h h0) (fun h => h3 ((last_iff t).mp h)) (iblk m c 0 t) (iblk m c 1 t) _ Set.univ _)
      isplitl [H0]; · iexact H0
      isplitl [H1]; · iexact H1
      isplitl [H2]; · iexact H2
      isplitl [H3]; · iexists _; iexact H3
      isplitl [HS]; · iexact HS
      iintro ⟨H0, H1, H2, H3, HS⟩
      isplitl [HS Hg]
      · isplitl [HS]; · iexact HS
        iexact Hg
      isplitl [Ho]; · iexact Ho
      isplitl [H0]; · iexact H0
      isplitl [H1]; · iexact H1
      isplitl [H2]; · iexists _; iexact H2
      iexact H3
    · rw [PhiS_castSucc m c t, PhiS_pos m c _ _ hz]
      iintro ⟨⟨HS, Hg⟩, Ho, ⟨%d0, H0⟩, ⟨%d1, H1⟩, ⟨%d2, H2⟩, ⟨%d3, H3⟩⟩
      iapply (runFirst c (grid0.coords t) (ms0 t) (hs0 t) (ms1 t) (hs1 t) (ms2 t) (hs2 t) (ms3 t) (hs3 t) scM (Memref.isWhole_whole _)
        ((first_iff t).mpr h0) (fun h => (later_iff t).mp h h0) (fun h => h3 ((last_iff t).mp h)) (iblk m c 0 t) (iblk m c 1 t) _ Set.univ _)
      isplitl [H0]; · iexact H0
      isplitl [H1]; · iexact H1
      isplitl [H2]; · iexact H2
      isplitl [H3]; · iexists _; iexact H3
      isplitl [HS]; · iexists _; iexact HS
      iintro ⟨H0, H1, H2, H3, HS⟩
      isplitl [HS Hg]
      · isplitl [HS]; · iexact HS
        iexact Hg
      isplitl [Ho]; · iexact Ho
      isplitl [H0]; · iexact H0
      isplitl [H1]; · iexact H1
      isplitl [H2]; · iexists _; iexact H2
      iexact H3
  · have hz : t.val ≠ 0 := fun h => h0 (by rw [h])
    rw [accAt_later m c t h0]
    rw [PhiS_castSucc m c t, PhiS_pos m c _ _ hz]
    by_cases h3 : t.val % 4 = 3
    · rw [leaves_2_last m c t h3, accAt_later m c t h0]
      iintro ⟨⟨HS, Hg⟩, Ho, ⟨%d0, H0⟩, ⟨%d1, H1⟩, ⟨%d2, H2⟩, ⟨%d3, H3⟩⟩
      iapply (runLast c (grid0.coords t) (ms0 t) (hs0 t) (ms1 t) (hs1 t) (ms2 t) (hs2 t) (ms3 t) (hs3 t) scM (Memref.isWhole_whole _)
        (fun h => h0 ((first_iff t).mp h)) ((later_iff t).mpr h0) ((last_iff t).mpr h3) (iblk m c 0 t) (iblk m c 1 t) _ Set.univ _)
      isplitl [H0]; · iexact H0
      isplitl [H1]; · iexact H1
      isplitl [H2]; · iexists _; iexact H2
      isplitl [H3]; · iexists _; iexact H3
      isplitl [HS]; · iexact HS
      iintro ⟨H0, H1, H2, H3, HS⟩
      isplitl [HS Hg]
      · isplitl [HS]; · iexact HS
        iexact Hg
      isplitl [Ho]; · iexact Ho
      isplitl [H0]; · iexact H0
      isplitl [H1]; · iexact H1
      isplitl [H2]; · iexact H2
      iexact H3
    · rw [Dat.leavesExact_idle (dats m 0 c) 2 t (idle2 t h3) (noFlush2 t h3)]
      iintro ⟨⟨HS, Hg⟩, Ho, ⟨%d0, H0⟩, ⟨%d1, H1⟩, ⟨%d2, H2⟩, ⟨%d3, H3⟩⟩
      iapply (runLater c (grid0.coords t) (ms0 t) (hs0 t) (ms1 t) (hs1 t) (ms2 t) (hs2 t) (ms3 t) (hs3 t) scM (Memref.isWhole_whole _)
        (fun h => h0 ((first_iff t).mp h)) ((later_iff t).mpr h0) (fun h => h3 ((last_iff t).mp h)) (iblk m c 0 t) (iblk m c 1 t) _ _ Set.univ _)
      isplitl [H0]; · iexact H0
      isplitl [H1]; · iexact H1
      isplitl [H2]; · iexact H2
      isplitl [H3]; · iexists _; iexact H3
      isplitl [HS]; · iexact HS
      iintro ⟨H0, H1, H2, H3, HS⟩
      isplitl [HS Hg]
      · isplitl [HS]; · iexact HS
        iexact Hg
      isplitl [Ho]; · iexact Ho
      isplitl [H0]; · iexact H0
      isplitl [H1]; · iexact H1
      isplitl [H2]; · iexists _; iexact H2
      iexact H3

theorem body_obligation (c : Dev nD) : BodyObligation (dats (F := F) m 0 c) (defs₀ (F := F)) Variants.none () Set.univ := fun t => by
  rw [bigSep_W0, bigSep_W0]
  exact sound_body m c t

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem hout (c : Dev nD) : (dats m 0 c).Φ (Fin.last cfg0.N) ⊢ Pipeline.ΦA spec0 c := by
  have hne : (Fin.last cfg0.N).val ≠ 0 := by rw [Fin.val_last]; have : cfg0.N = 32 := N_0; omega
  rw [show (dats m 0 c).Φ (Fin.last cfg0.N) = PhiS m c (Fin.last cfg0.N).val (Nat.le_of_lt_succ (Fin.last cfg0.N).isLt) from rfl,
    PhiS_pos m c _ _ hne, PhiA_eq]
  iintro ⟨HS, Hg⟩
  isplitl [HS]
  · iexists _; iexact HS
  iexact Hg

/-! ## The run and the frame -/

set_option backward.isDefEq.respectTransparency.types false in
/-- Every weakly fair execution of the program terminates, faulting nowhere; each array of the pipeline ends at what the
    library computes from the proof data, every other buffer as the lines after the region leave it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- The program runs and leaves its two argument arrays as it found them. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

end Cert.Kernel.Body

end
-- ==== Proof.KI.Steps.lean ====
/-
  The kernel body at one grid point. The grid is eight batches of four steps; at each step the body sees the whole block
  of the first cloud's batch and 1024 points of the second cloud. It stores the step's column minima of the squared
  distances, and keeps the running row minima, 128 lanes wide, in a scratch buffer that lives across the four steps of a
  batch: set at the first step, lowered at the later ones, and reduced to the batch's row minima at the last. The three
  theorems run the body in the three kinds of step and say what each buffer holds afterwards as a pure function of what
  it was handed.
-/
import proofs.«180873_g88837103551002_cont_sun_m_1114_24_alg».proof.Proof.Gen.KernelIdeal.Frame
import proofs.«180873_g88837103551002_cont_sun_m_1114_24_alg».proof.Proof.Gen.KernelIdeal.Skeleton
import Idealize.ShloMosaic.Lib.Pipeline.Value

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

theorem hz3 : (![0, 0, 0] : Fin 3 → ℕ) = fun _ => 0 := by funext a; fin_cases a <;> rfl
theorem hz2 : (![0, 0] : Fin 2 → ℕ) = fun _ => 0 := by funext a; fin_cases a <;> rfl

/-- What one whole-buffer store leaves in a buffer reads back as the stored value, whatever was there before. -/
theorem read_store_whole {S : Shape} (a : Memref sig .tc .vmem S .f32) (f : a.view.ty.Contents (Elt F))
    {off : Fin S.rank → ℕ} (hz : off = fun _ => 0) (inb : ∀ k, off k + S.size k ≤ S.size k) (w : S.Idx → Elt F .f32) :
    a.view.read (Elt F) (a.view.writes (Elt F) f [⟨Rect.unit off S.size inb, w⟩]) = w := by
  rw [View.read_writes_eq_canon _ _ _ (fun y => ⟨_, List.mem_singleton_self _, View.mem_set_unit_zero hz inb y⟩)]
  exact View.canon_unit_zero hz inb w

/-- A whole-buffer load of a whole buffer that reads `x` reads `x`. -/
theorem load_whole {S : Shape} (a : Memref sig .tc .vmem S .f32) (h : a.IsWhole)
    {off : Fin S.rank → ℕ} (hz : off = fun _ => 0) (inb : ∀ k, off k + S.size k ≤ S.size k) (x : S.Idx → Elt F .f32) :
    View.readAt (Elt F) a.view (Rect.unit off S.size inb).toLoadRect (h.unread x) = x := by
  show View.ld (a.view.read (Elt F) (h.unread x)) (Rect.unit off S.size inb) = x
  rw [h.read_unread]; exact View.ld_unit_zero hz inb x

/-- The body's three conditions, as it computes them from the point's second coordinate `j`: `j = 0`, `j ≠ 0`, `j = 3`. -/
abbrev condFirst (i : grid0.Coords) : Prop :=
  (Scalar.cmpi .ne (Scalar.extui (Scalar.cmpi .eq (BitVec.ofNat 32 (i 1).val) 0#32)) 0#32) = 1#1
abbrev condLater (i : grid0.Coords) : Prop :=
  (Scalar.cmpi .ne (Scalar.extui (Scalar.cmpi .ne (BitVec.ofNat 32 (i 1).val) 0#32)) 0#32) = 1#1
abbrev condLast (i : grid0.Coords) : Prop := k0_cond3 i = 1#1

/-- In which of its batch's four steps a point lies, from its position in the grid's order (eight batches of four steps). -/
theorem first_iff : ∀ t : Fin cfg0.N, condFirst (grid0.coords t) ↔ t.val % 4 = 0 :=
  (by decide +kernel : ∀ t : Fin grid0.N, condFirst (grid0.coords t) ↔ t.val % 4 = 0)
theorem later_iff : ∀ t : Fin cfg0.N, condLater (grid0.coords t) ↔ ¬t.val % 4 = 0 :=
  (by decide +kernel : ∀ t : Fin grid0.N, condLater (grid0.coords t) ↔ ¬t.val % 4 = 0)
theorem last_iff : ∀ t : Fin cfg0.N, condLast (grid0.coords t) ↔ t.val % 4 = 3 :=
  (by decide +kernel : ∀ t : Fin grid0.N, condLast (grid0.coords t) ↔ t.val % 4 = 3)

/-! ## The body at a point, in each of the three kinds of step

The body reads the whole block of `x`'s batch and the step's 1024 points of `y`, stores the column minima, and keeps the
running row minima, 128 lanes wide, in its scratch: set at a batch's first step, lowered at the later ones, and reduced
to the row minima at the last. -/

theorem runFirst (c : Dev nD) (i : grid0.Coords)
    (a2 : Memref sig .tc .vmem S1x4096x3 .f32) (h2 : a2.IsWhole) (a3 : Memref sig .tc .vmem S1x1024x3 .f32) (h3 : a3.IsWhole)
    (a4 : Memref sig .tc .vmem S1x1x4096 .f32) (h4 : a4.IsWhole) (a5 : Memref sig .tc .vmem S1x1x1024 .f32) (h5 : a5.IsWhole)
    (a6 : Memref sig .tc .vmem S4096x128 .f32) (h6 : a6.IsWhole)
    (hc1 : condFirst i) (hc2 : ¬condLater i) (hc3 : ¬condLast i)
    (x0 : Vec F S1x4096x3 .f32) (x1 : Vec F S1x1024x3 .f32) (xi : Vec F S1x1x4096 .f32) (E : Set ℕ) (K : PUnit → sProp 𝕄) :
    iprop(owns (c : Thread nD τ) a2 fullShare x0 ∗ owns (c : Thread nD τ) a3 fullShare x1 ∗ owns (c : Thread nD τ) a4 fullShare xi
        ∗ (∃ d, owns (c : Thread nD τ) a5 fullShare d) ∗ (∃ d, owns (c : Thread nD τ) a6 fullShare d)
        ∗ (iprop(owns (c : Thread nD τ) a2 fullShare x0 ∗ owns (c : Thread nD τ) a3 fullShare x1 ∗ owns (c : Thread nD τ) a4 fullShare xi
            ∗ owns (c : Thread nD τ) a5 fullShare (k0_pay5 x0 x1) ∗ owns (c : Thread nD τ) a6 fullShare (k0_pay6 x0 x1)) -∗ K ⟨⟩))
      ⊢ wp frame (wpE (defs₀ (F := F)) Variants.none c none) E (cc0__chamfer_body i a2 h2 a3 h3 a4 h4 a5 h5 a6 h6) K := by
  simp only [cc0__chamfer_body_eq_skeleton]; unfold cc0__chamfer_body_skel
  simp only [k0_part1_eq_skeleton]; unfold k0_part1_skel
  unfold owns
  iintro ⟨⟨%f0, %hf0, H0⟩, ⟨%f1, %hf1, H1⟩, ⟨%f2, %hf2, H2⟩, ⟨%d3, %f3, -, H3⟩, ⟨%d6, %f6, -, H6⟩, Hk⟩
  obtain rfl := h2.eq_unread hf0; obtain rfl := h3.eq_unread hf1; obtain rfl := h4.eq_unread hf2
  sl_exec (disch := first | exact hc1 | exact hc2 | exact hc3)
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  isplitl [H3]
  · iexists _; isplitr
    swap; · iexact H3
    ipureintro
    rw [read_store_whole a5 f3 hz3, load_whole a2 h2 hz3, load_whole a3 h3 hz3]
  iexists _; isplitr
  swap; · iexact H6
  ipureintro
  rw [read_store_whole a6 f6 hz2, load_whole a2 h2 hz3, load_whole a3 h3 hz3]

theorem runLater (c : Dev nD) (i : grid0.Coords)
    (a2 : Memref sig .tc .vmem S1x4096x3 .f32) (h2 : a2.IsWhole) (a3 : Memref sig .tc .vmem S1x1024x3 .f32) (h3 : a3.IsWhole)
    (a4 : Memref sig .tc .vmem S1x1x4096 .f32) (h4 : a4.IsWhole) (a5 : Memref sig .tc .vmem S1x1x1024 .f32) (h5 : a5.IsWhole)
    (a6 : Memref sig .tc .vmem S4096x128 .f32) (h6 : a6.IsWhole)
    (hc1 : ¬condFirst i) (hc2 : condLater i) (hc3 : ¬condLast i)
    (x0 : Vec F S1x4096x3 .f32) (x1 : Vec F S1x1024x3 .f32) (xi : Vec F S1x1x4096 .f32) (xs : Vec F S4096x128 .f32)
    (E : Set ℕ) (K : PUnit → sProp 𝕄) :
    iprop(owns (c : Thread nD τ) a2 fullShare x0 ∗ owns (c : Thread nD τ) a3 fullShare x1 ∗ owns (c : Thread nD τ) a4 fullShare xi
        ∗ (∃ d, owns (c : Thread nD τ) a5 fullShare d) ∗ owns (c : Thread nD τ) a6 fullShare xs
        ∗ (iprop(owns (c : Thread nD τ) a2 fullShare x0 ∗ owns (c : Thread nD τ) a3 fullShare x1 ∗ owns (c : Thread nD τ) a4 fullShare xi
            ∗ owns (c : Thread nD τ) a5 fullShare (k0_pay5 x0 x1) ∗ owns (c : Thread nD τ) a6 fullShare (k0_pay1 (k0_pay4 x0 x1) xs)) -∗ K ⟨⟩))
      ⊢ wp frame (wpE (defs₀ (F := F)) Variants.none c none) E (cc0__chamfer_body i a2 h2 a3 h3 a4 h4 a5 h5 a6 h6) K := by
  simp only [cc0__chamfer_body_eq_skeleton]; unfold cc0__chamfer_body_skel
  simp only [k0_part1_eq_skeleton]; unfold k0_part1_skel
  unfold owns
  iintro ⟨⟨%f0, %hf0, H0⟩, ⟨%f1, %hf1, H1⟩, ⟨%f2, %hf2, H2⟩, ⟨%d3, %f3, -, H3⟩, ⟨%f6, %hf6, H6⟩, Hk⟩
  obtain rfl := h2.eq_unread hf0; obtain rfl := h3.eq_unread hf1; obtain rfl := h4.eq_unread hf2
  obtain rfl := h6.eq_unread hf6
  sl_exec (disch := first | exact hc1 | exact hc2 | exact hc3)
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  isplitl [H3]
  · iexists _; isplitr
    swap; · iexact H3
    ipureintro
    rw [read_store_whole a5 f3 hz3, load_whole a2 h2 hz3, load_whole a3 h3 hz3]
  iexists _; isplitr
  swap; · iexact H6
  ipureintro
  sl_unfold_run_names
  rw [read_store_whole a6 _ hz2, load_whole a2 h2 hz3, load_whole a3 h3 hz3, load_whole a6 h6 hz2]

theorem runLast (c : Dev nD) (i : grid0.Coords)
    (a2 : Memref sig .tc .vmem S1x4096x3 .f32) (h2 : a2.IsWhole) (a3 : Memref sig .tc .vmem S1x1024x3 .f32) (h3 : a3.IsWhole)
    (a4 : Memref sig .tc .vmem S1x1x4096 .f32) (h4 : a4.IsWhole) (a5 : Memref sig .tc .vmem S1x1x1024 .f32) (h5 : a5.IsWhole)
    (a6 : Memref sig .tc .vmem S4096x128 .f32) (h6 : a6.IsWhole)
    (hc1 : ¬condFirst i) (hc2 : condLater i) (hc3 : condLast i)
    (x0 : Vec F S1x4096x3 .f32) (x1 : Vec F S1x1024x3 .f32) (xs : Vec F S4096x128 .f32) (E : Set ℕ) (K : PUnit → sProp 𝕄) :
    iprop(owns (c : Thread nD τ) a2 fullShare x0 ∗ owns (c : Thread nD τ) a3 fullShare x1 ∗ (∃ d, owns (c : Thread nD τ) a4 fullShare d)
        ∗ (∃ d, owns (c : Thread nD τ) a5 fullShare d) ∗ owns (c : Thread nD τ) a6 fullShare xs
        ∗ (iprop(owns (c : Thread nD τ) a2 fullShare x0 ∗ owns (c : Thread nD τ) a3 fullShare x1
            ∗ owns (c : Thread nD τ) a4 fullShare (k0_pay2 (k0_pay1 (k0_pay4 x0 x1) xs))
            ∗ owns (c : Thread nD τ) a5 fullShare (k0_pay5 x0 x1) ∗ owns (c : Thread nD τ) a6 fullShare (k0_pay1 (k0_pay4 x0 x1) xs)) -∗ K ⟨⟩))
      ⊢ wp frame (wpE (defs₀ (F := F)) Variants.none c none) E (cc0__chamfer_body i a2 h2 a3 h3 a4 h4 a5 h5 a6 h6) K := by
  simp only [cc0__chamfer_body_eq_skeleton]; unfold cc0__chamfer_body_skel
  simp only [k0_part1_eq_skeleton]; unfold k0_part1_skel
  unfold owns
  iintro ⟨⟨%f0, %hf0, H0⟩, ⟨%f1, %hf1, H1⟩, ⟨%d2, %f2, -, H2⟩, ⟨%d3, %f3, -, H3⟩, ⟨%f6, %hf6, H6⟩, Hk⟩
  obtain rfl := h2.eq_unread hf0; obtain rfl := h3.eq_unread hf1; obtain rfl := h6.eq_unread hf6
  sl_exec (disch := first | exact hc1 | exact hc2 | exact hc3)
  sl_step
  iapply Hk
  isplitl [H0]
  · iexists _; isplitr; · ipureintro; exact hf0
    iexact H0
  isplitl [H1]
  · iexists _; isplitr; · ipureintro; exact hf1
    iexact H1
  isplitl [H2]
  · iexists _; isplitr
    swap; · iexact H2
    ipureintro
    sl_unfold_run_names
    rw [read_store_whole a4 f2 hz3, View.readCov_unit_zero a6.view hz2]
    dsimp only
    rw [load_whole a2 h2 hz3, load_whole a3 h3 hz3, load_whole a6 h6 hz2]
  isplitl [H3]
  · iexists _; isplitr
    swap; · iexact H3
    ipureintro
    rw [read_store_whole a5 f3 hz3, load_whole a2 h2 hz3, load_whole a3 h3 hz3]
  iexists _; isplitr
  swap; · iexact H6
  ipureintro
  sl_unfold_run_names
  rw [read_store_whole a6 _ hz2, load_whole a2 h2 hz3, load_whole a3 h3 hz3, load_whole a6 h6 hz2]

end Cert.KernelIdeal.Body

end
-- ==== Proof.KI.Run.lean ====
/-
  The frame of the program: it runs to the end, faults nowhere and leaves its argument arrays unchanged. The proof data
  says what every staging buffer holds after the body at each grid point — the inputs their blocks, the column-minimum
  output the step's column minima, the row-minimum output the row minima of the running lane-tile minima — and the
  invariant carries the scratch buffer from point to point at those running minima.
-/
import proofs.«180873_g88837103551002_cont_sun_m_1114_24_alg».proof.Proof.KI.Steps
import Idealize.ShloMosaic.Lib.Pipeline.FrameBody
import Idealize.ShloMosaic.Lib.Pipeline.FrameSuffix

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## Where the windows are live

The row-minimum output (window 2) is stored, and written back, only at a batch's last step; elsewhere its buffer is
handed back as found. The other windows are live everywhere. -/

theorem live0 : ∀ t : Fin cfg0.N, cfg0.idle 0 (grid0.coords t) = false := by decide +kernel
theorem live1 : ∀ t : Fin cfg0.N, cfg0.idle 1 (grid0.coords t) = false := by decide +kernel
theorem live3 : ∀ t : Fin cfg0.N, cfg0.idle 3 (grid0.coords t) = false := by decide +kernel
theorem live2 : ∀ t : Fin cfg0.N, t.val % 4 = 3 → cfg0.idle 2 (grid0.coords t) = false := by decide +kernel
theorem idle2 : ∀ t : Fin cfg0.N, ¬t.val % 4 = 3 → cfg0.idle 2 (grid0.coords t) = true := by decide +kernel
theorem noFlush2 : ∀ t : Fin cfg0.N, ¬t.val % 4 = 3 → (cfg0.win 2).flush t = false := by decide +kernel

/-- Each window's current staging memref at point `t`, as the pipeline passes it, and the scratch. -/
abbrev ms0 (t : Fin cfg0.N) : Memref sig .tc .vmem S1x4096x3 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S1x1024x3 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1x1x4096 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x1x1024 .f32 := win0_3.stage (cfg0.slots t 3)
abbrev hs3 (t : Fin cfg0.N) : (ms3 t).IsWhole := hstage0_3 ((cfg0.slots t 3).cast nbuf0_3)
abbrev scM : Memref sig .tc .vmem S4096x128 .f32 := Memref.whole cc0_scratch0

/-- What the region may use besides its windows: the scratch at some contents and the generator register. -/
theorem PhiA_eq (c : Dev nD) :
    (Pipeline.ΦA spec0 c : sProp 𝕄)
      = iprop(iprop((∃ d, owns (c : Thread nD τ) scM fullShare d)) ∗ (∃ r, prngReg c r)) := by
  unfold Pipeline.ΦA; rw [scopedRest0_eq]; simp only [scM, owns_whole]; try rfl

variable (m : (ℓ : Loc nD τ sig) → Buf (Elt F) ℓ) (ρ : Dev nD → PrngReg)

/-! ## The running row minima, point by point -/

/-- What the scratch holds after the body at position `n` of the grid's order: at a batch's first step the step's own
    lane-tile minima, at a later step the minimum of those with what the step before left. -/
def accAt (c : Dev nD) : (n : ℕ) → n < cfg0.N → Vec F S4096x128 .f32
  | 0, hn => k0_pay6 (iblk m c 0 ⟨0, hn⟩) (iblk m c 1 ⟨0, hn⟩)
  | n + 1, hn =>
    if (n + 1) % 4 = 0 then k0_pay6 (iblk m c 0 ⟨n + 1, hn⟩) (iblk m c 1 ⟨n + 1, hn⟩)
    else k0_pay1 (k0_pay4 (iblk m c 0 ⟨n + 1, hn⟩) (iblk m c 1 ⟨n + 1, hn⟩)) (accAt c n (Nat.lt_of_succ_lt hn))

theorem accAt_first (c : Dev nD) (t : Fin cfg0.N) (h : t.val % 4 = 0) :
    accAt m c t.val t.isLt = k0_pay6 (iblk m c 0 t) (iblk m c 1 t) := by
  obtain ⟨n, hn⟩ := t
  cases n with
  | zero => rfl
  | succ n => exact if_pos h

theorem accAt_later (c : Dev nD) (t : Fin cfg0.N) (h : ¬t.val % 4 = 0) :
    accAt m c t.val t.isLt
      = k0_pay1 (k0_pay4 (iblk m c 0 t) (iblk m c 1 t)) (accAt m c (t.val - 1) (Nat.lt_of_le_of_lt (Nat.sub_le _ _) t.isLt)) := by
  obtain ⟨n, hn⟩ := t
  cases n with
  | zero => exact absurd (Nat.zero_mod _) h
  | succ n => exact (if_neg h).trans rfl

/-- The region's invariant before position `n`: before the first point the scratch holds anything; afterwards what the
    point before left. -/
def PhiS (c : Dev nD) : (n : ℕ) → n ≤ cfg0.N → sProp 𝕄
  | 0, _ => Pipeline.ΦA spec0 c
  | n + 1, hn => iprop(iprop(owns (c : Thread nD τ) scM fullShare (accAt m c n hn)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM fullShare (accAt m c n hn)) ∗ (∃ r, prngReg c r)) := rfl

theorem PhiS_pos (c : Dev nD) (n : ℕ) (h : n ≤ cfg0.N) (hz : n ≠ 0) :
    PhiS m c n h = iprop(iprop(owns (c : Thread nD τ) scM fullShare (accAt m c (n - 1) (by omega))) ∗ (∃ r, prngReg c r)) := by
  cases n with
  | zero => exact absurd rfl hz
  | succ n => rfl

/-! ## The pipeline's proof data -/

/-- The arrays as the region finds them; after the body at point `t` the inputs' buffers at their blocks, the column
    minima's at the step's column minima, the row minima's at the row minima of the running lane-tile minima. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => k0_pay2 (accAt m c t.val t.isLt)
    | ⟨3, _⟩ => k0_pay5 (iblk m c 0 t) (iblk m c 1 t)
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = k0_pay2 (accAt m c t.val t.isLt) := by dsimp only [dats]
theorem after_3 (c : Dev nD) (t : Fin cfg0.N) : (dats m 0 c).after 3 t = k0_pay5 (iblk m c 0 t) (iblk m c 1 t) := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t)

theorem leaves_0 (c : Dev nD) (t : Fin cfg0.N) :
    (dats m 0 c).leavesExact 0 t = owns (c : Thread nD τ) (ms0 t) fullShare (iblk m c 0 t) := by
  unfold Dat.leavesExact; rw [live0 t, after_0]
theorem leaves_1 (c : Dev nD) (t : Fin cfg0.N) :
    (dats m 0 c).leavesExact 1 t = owns (c : Thread nD τ) (ms1 t) fullShare (iblk m c 1 t) := by
  unfold Dat.leavesExact; rw [live1 t, after_1]
theorem leaves_3 (c : Dev nD) (t : Fin cfg0.N) :
    (dats m 0 c).leavesExact 3 t = owns (c : Thread nD τ) (ms3 t) fullShare (k0_pay5 (iblk m c 0 t) (iblk m c 1 t)) := by
  unfold Dat.leavesExact; rw [live3 t, after_3]
theorem leaves_2_last (c : Dev nD) (t : Fin cfg0.N) (h : t.val % 4 = 3) :
    (dats m 0 c).leavesExact 2 t = owns (c : Thread nD τ) (ms2 t) fullShare (k0_pay2 (accAt m c t.val t.isLt)) := by
  unfold Dat.leavesExact; rw [live2 t h, after_2]

set_option maxHeartbeats 1600000 in
/-- The body at any point: the step's kind is read off the point's position; the invariant hands the body the scratch at
    what the point before left (at anything before the first point) and takes it back at this point's contents. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1]
  rw [show (dats m 0 c).owesAt () t.succ = (dats m 0 c).owesAt () t.castSucc from rfl]
  rw [show (dats m 0 c).Φ t.succ = PhiS m c (t.val + 1) t.isLt from rfl, PhiS_succ]
  rw [leaves_0, leaves_1, leaves_3]
  have hN : t.val < 32 := lt_of_lt_of_eq t.isLt (show cfg0.N = 32 from N_0)
  by_cases h0 : t.val % 4 = 0
  · have h3 : ¬t.val % 4 = 3 := by omega
    rw [Dat.leavesExact_idle (dats m 0 c) 2 t (idle2 t h3) (noFlush2 t h3)]
    rw [accAt_first m c t h0]
    by_cases hz : t.val = 0
    · rw [PhiS_castSucc m c t, PhiS_zero m c _ _ hz, PhiA_eq]
      iintro ⟨⟨HS, Hg⟩, Ho, ⟨%d0, H0⟩, ⟨%d1, H1⟩, ⟨%d2, H2⟩, ⟨%d3, H3⟩⟩
      iapply (runFirst c (grid0.coords t) (ms0 t) (hs0 t) (ms1 t) (hs1 t) (ms2 t) (hs2 t) (ms3 t) (hs3 t) scM (Memref.isWhole_whole _)
        ((first_iff t).mpr h0) (fun h => (later_iff t).mp h h0) (fun h => h3 ((last_iff t).mp h)) (iblk m c 0 t) (iblk m c 1 t) _ Set.univ _)
      isplitl [H0]; · iexact H0
      isplitl [H1]; · iexact H1
      isplitl [H2]; · iexact H2
      isplitl [H3]; · iexists _; iexact H3
      isplitl [HS]; · iexact HS
      iintro ⟨H0, H1, H2, H3, HS⟩
      isplitl [HS Hg]
      · isplitl [HS]; · iexact HS
        iexact Hg
      isplitl [Ho]; · iexact Ho
      isplitl [H0]; · iexact H0
      isplitl [H1]; · iexact H1
      isplitl [H2]; · iexists _; iexact H2
      iexact H3
    · rw [PhiS_castSucc m c t, PhiS_pos m c _ _ hz]
      iintro ⟨⟨HS, Hg⟩, Ho, ⟨%d0, H0⟩, ⟨%d1, H1⟩, ⟨%d2, H2⟩, ⟨%d3, H3⟩⟩
      iapply (runFirst c (grid0.coords t) (ms0 t) (hs0 t) (ms1 t) (hs1 t) (ms2 t) (hs2 t) (ms3 t) (hs3 t) scM (Memref.isWhole_whole _)
        ((first_iff t).mpr h0) (fun h => (later_iff t).mp h h0) (fun h => h3 ((last_iff t).mp h)) (iblk m c 0 t) (iblk m c 1 t) _ Set.univ _)
      isplitl [H0]; · iexact H0
      isplitl [H1]; · iexact H1
      isplitl [H2]; · iexact H2
      isplitl [H3]; · iexists _; iexact H3
      isplitl [HS]; · iexists _; iexact HS
      iintro ⟨H0, H1, H2, H3, HS⟩
      isplitl [HS Hg]
      · isplitl [HS]; · iexact HS
        iexact Hg
      isplitl [Ho]; · iexact Ho
      isplitl [H0]; · iexact H0
      isplitl [H1]; · iexact H1
      isplitl [H2]; · iexists _; iexact H2
      iexact H3
  · have hz : t.val ≠ 0 := fun h => h0 (by rw [h])
    rw [accAt_later m c t h0]
    rw [PhiS_castSucc m c t, PhiS_pos m c _ _ hz]
    by_cases h3 : t.val % 4 = 3
    · rw [leaves_2_last m c t h3, accAt_later m c t h0]
      iintro ⟨⟨HS, Hg⟩, Ho, ⟨%d0, H0⟩, ⟨%d1, H1⟩, ⟨%d2, H2⟩, ⟨%d3, H3⟩⟩
      iapply (runLast c (grid0.coords t) (ms0 t) (hs0 t) (ms1 t) (hs1 t) (ms2 t) (hs2 t) (ms3 t) (hs3 t) scM (Memref.isWhole_whole _)
        (fun h => h0 ((first_iff t).mp h)) ((later_iff t).mpr h0) ((last_iff t).mpr h3) (iblk m c 0 t) (iblk m c 1 t) _ Set.univ _)
      isplitl [H0]; · iexact H0
      isplitl [H1]; · iexact H1
      isplitl [H2]; · iexists _; iexact H2
      isplitl [H3]; · iexists _; iexact H3
      isplitl [HS]; · iexact HS
      iintro ⟨H0, H1, H2, H3, HS⟩
      isplitl [HS Hg]
      · isplitl [HS]; · iexact HS
        iexact Hg
      isplitl [Ho]; · iexact Ho
      isplitl [H0]; · iexact H0
      isplitl [H1]; · iexact H1
      isplitl [H2]; · iexact H2
      iexact H3
    · rw [Dat.leavesExact_idle (dats m 0 c) 2 t (idle2 t h3) (noFlush2 t h3)]
      iintro ⟨⟨HS, Hg⟩, Ho, ⟨%d0, H0⟩, ⟨%d1, H1⟩, ⟨%d2, H2⟩, ⟨%d3, H3⟩⟩
      iapply (runLater c (grid0.coords t) (ms0 t) (hs0 t) (ms1 t) (hs1 t) (ms2 t) (hs2 t) (ms3 t) (hs3 t) scM (Memref.isWhole_whole _)
        (fun h => h0 ((first_iff t).mp h)) ((later_iff t).mpr h0) (fun h => h3 ((last_iff t).mp h)) (iblk m c 0 t) (iblk m c 1 t) _ _ Set.univ _)
      isplitl [H0]; · iexact H0
      isplitl [H1]; · iexact H1
      isplitl [H2]; · iexact H2
      isplitl [H3]; · iexists _; iexact H3
      isplitl [HS]; · iexact HS
      iintro ⟨H0, H1, H2, H3, HS⟩
      isplitl [HS Hg]
      · isplitl [HS]; · iexact HS
        iexact Hg
      isplitl [Ho]; · iexact Ho
      isplitl [H0]; · iexact H0
      isplitl [H1]; · iexact H1
      isplitl [H2]; · iexists _; iexact H2
      iexact H3

theorem body_obligation (c : Dev nD) : BodyObligation (dats (F := F) m 0 c) (defs₀ (F := F)) Variants.none () Set.univ := fun t => by
  rw [bigSep_W0, bigSep_W0]
  exact sound_body m c t

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem hout (c : Dev nD) : (dats m 0 c).Φ (Fin.last cfg0.N) ⊢ Pipeline.ΦA spec0 c := by
  have hne : (Fin.last cfg0.N).val ≠ 0 := by rw [Fin.val_last]; have : cfg0.N = 32 := N_0; omega
  rw [show (dats m 0 c).Φ (Fin.last cfg0.N) = PhiS m c (Fin.last cfg0.N).val (Nat.le_of_lt_succ (Fin.last cfg0.N).isLt) from rfl,
    PhiS_pos m c _ _ hne, PhiA_eq]
  iintro ⟨HS, Hg⟩
  isplitl [HS]
  · iexists _; iexact HS
  iexact Hg

/-! ## The run and the frame -/

set_option backward.isDefEq.respectTransparency.types false in
/-- Every weakly fair execution of the program terminates, faulting nowhere; each array of the pipeline ends at what the
    library computes from the proof data, every other buffer as the lines after the region leave it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- The program runs and leaves its two argument arrays as it found them. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

end Cert.KernelIdeal.Body

end
-- ==== Proof.Spec.lean ====
/-
  The chamfer distance on the extended reals, written over the coordinates of the two point clouds.

  For clouds `x`, `y` of shape [8, 4096, 3] (batch, point, coordinate), the squared distance between point `n` of `x`
  and point `m` of `y` in batch `b` is expanded as |x|² + |y|² − 2·⟨x, y⟩; the distance from a point to the other cloud is
  the least of these, folded from the value `top` the programs start their minima from. A fold of `min` is described by
  its lower bounds: `c` is below it exactly when `c` is below the start and below every entry. Two such folds with the
  same lower bounds are equal, which is how the differently grouped minima of the two programs are compared.
-/
import Idealize.ShloMosaic.Lib.ValueIdx
import Idealize.ShloMosaic.PureOps.Ideal.Laws

noncomputable section

open scoped BigOperators

namespace Cert.Chamfer

open Idealize.ShloMosaic Idealize.ShloMosaic.ValueIdx

/-- A cloud: eight batches of 4096 points with three coordinates. -/
abbrev Cloud : Type := (⟨3, ![8, 4096, 3]⟩ : Shape).Idx → EReal

/-- The factor two, as both programs spell it. -/
def two : EReal := (FloatOps.ofBits (F := Ideal) .f32 0x40000000#32)

/-- The value every minimum starts from, as both programs spell it. -/
def top : EReal := (FloatOps.ofBits (F := Ideal) .f32 0x7F800000#32)

/-- The squared norm of point `n` of batch `b`. -/
def sqn (x : Cloud) (b : Fin 8) (n : Fin 4096) : EReal := ∑ d : Fin 3, x (ix3 b n d) * x (ix3 b n d)

/-- The inner product of point `n` of `x` with point `m` of `y`, in batch `b`. -/
def inner (x y : Cloud) (b : Fin 8) (n m : Fin 4096) : EReal := ∑ d : Fin 3, x (ix3 b n d) * y (ix3 b m d)

/-- The expanded squared distance. -/
def pd (x y : Cloud) (b : Fin 8) (n m : Fin 4096) : EReal := (sqn x b n + sqn y b m) - two * inner x y b n m

/-- From point `n` of `x` to the cloud `y`. -/
def dist1 (x y : Cloud) (b : Fin 8) (n : Fin 4096) : EReal := (Finset.univ : Finset (Fin 4096)).fold min top fun m => pd x y b n m

/-- From point `m` of `y` to the cloud `x`. -/
def dist2 (x y : Cloud) (b : Fin 8) (m : Fin 4096) : EReal := (Finset.univ : Finset (Fin 4096)).fold min top fun n => pd x y b n m

/-- The two results as arrays of shape [8, 4096]. -/
def out1 (x y : Cloud) : (⟨2, ![8, 4096]⟩ : Shape).Idx → EReal := fun i => dist1 x y ⟨(i 0).val, (i 0).isLt⟩ ⟨(i 1).val, (i 1).isLt⟩
def out2 (x y : Cloud) : (⟨2, ![8, 4096]⟩ : Shape).Idx → EReal := fun i => dist2 x y ⟨(i 0).val, (i 0).isLt⟩ ⟨(i 1).val, (i 1).isLt⟩

theorem out1_ix2 (x y : Cloud) (b : Fin 8) (n : Fin 4096) : out1 x y (ix2 b n) = dist1 x y b n := rfl
theorem out2_ix2 (x y : Cloud) (b : Fin 8) (m : Fin 4096) : out2 x y (ix2 b m) = dist2 x y b m := rfl

/-- A fold of `min` over a whole finite type, by its lower bounds. -/
theorem le_foldmin_iff {ι : Type} [Fintype ι] (f : ι → EReal) (b c : EReal) :
    c ≤ (Finset.univ : Finset ι).fold min b f ↔ c ≤ b ∧ ∀ k, c ≤ f k := by
  rw [Finset.le_fold_min]; simp

/-- Two extended reals with the same lower bounds are equal. -/
theorem eq_of_lower {a b : EReal} (h : ∀ c, c ≤ a ↔ c ≤ b) : a = b := eq_of_forall_le_iff h

theorem le_dist1_iff (x y : Cloud) (b : Fin 8) (n : Fin 4096) (c : EReal) :
    c ≤ dist1 x y b n ↔ c ≤ top ∧ ∀ m, c ≤ pd x y b n m := le_foldmin_iff _ _ _
theorem le_dist2_iff (x y : Cloud) (b : Fin 8) (m : Fin 4096) (c : EReal) :
    c ≤ dist2 x y b m ↔ c ≤ top ∧ ∀ n, c ≤ pd x y b n m := le_foldmin_iff _ _ _

end Cert.Chamfer

end
-- ==== Proof.LibKeepdims.lean ====
/-
  Reading a row sum kept as a column. A sum along the rows of an `[a, b]` array is an `[a]` vector; kept as a
  column it is cast to `[a, 1]` and then spread over `[a, c]`. Read at `(p, q)` each step looks at row `p` only:
  the cast ignores the unit coordinate, the spreading ignores the column, and the sum ranges over the `b` entries
  of row `p`. The three steps are stated one by one, over indices written by their coordinates, and then composed.
-/
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.LibKeepdims

open Idealize.ShloMosaic Idealize.ShloMosaic.ValueIdx

variable {α : Type}

/-- An `[a]` vector cast to the column `[a, 1]` reads, at `(i, u)`, the vector at `i`, whatever the unit
    coordinate `u`: both positions are the `i`-th in row-major order. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` spread over `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- Putting the summed coordinate `k` back into the reduced index `p` gives the entry `(p, k)`. -/
theorem lift_cols {m n : ℕ} (h : (⟨2, ![m, n]⟩ : Shape).Reduces [1] (⟨1, ![m]⟩ : Shape)) (p : Fin m)
    (k : Fin ((⟨2, ![m, n]⟩ : Shape).size 1)) : h.lift (ix1 p) k = ix2 p (⟨k.val, k.isLt⟩ : Fin n) := by
  funext c; apply Fin.ext
  fin_cases c <;> rfl

/-- A float sum along the second axis from the zero pattern, read at row `p`, is the sum of that row's entries
    on the extended reals. -/
theorem rowSum_apply {m n : ℕ} (src : FVec Ideal ⟨2, ![m, n]⟩ .f32) (h : (⟨2, ![m, n]⟩ : Shape).Reduces [1] (⟨1, ![m]⟩ : Shape))
    (hφ : FKind.Formats .f32) (hacc : (0x00000000#32 : BitVec 32) = 0x00000000#32) (p : Fin m) :
    multiReduction .add [1] (⟨1, ![m]⟩ : Shape) src 0x00000000#32 h hφ hacc (ix1 p) = ∑ k : Fin n, src (ix2 p k) := by
  refine (Ideal.multiReduction_add_single src 0x00000000#32 h hφ hacc (ix1 p)).trans ?_
  exact Finset.sum_congr rfl fun k _ => congrArg src (lift_cols h p k)

/-- The three steps composed: the row sums of an `[a, b]` array, kept as a column and spread over `[a, c]`, read at
    `(p, q)` the sum of row `p`. -/
theorem rowSum_column_apply {a b c : ℕ} (src : FVec Ideal ⟨2, ![a, b]⟩ .f32)
    (h : (⟨2, ![a, b]⟩ : Shape).Reduces [1] (⟨1, ![a]⟩ : Shape)) (hφ : FKind.Formats .f32)
    (hacc : (0x00000000#32 : BitVec 32) = 0x00000000#32)
    (hcast : (⟨1, ![a]⟩ : Shape).ShapeCasts ⟨2, ![a, 1]⟩) (hbc : (⟨2, ![a, 1]⟩ : Shape).Broadcasts ⟨2, ![a, c]⟩)
    (p : Fin a) (q : Fin c) :
    broadcastTo ⟨2, ![a, c]⟩ (shapeCast ⟨2, ![a, 1]⟩ (multiReduction .add [1] (⟨1, ![a]⟩ : Shape) src 0x00000000#32 h hφ hacc) hcast) hbc (ix2 p q)
      = ∑ k : Fin b, src (ix2 p k) :=
  (broadcastTo_a1_ab_apply _ hbc p q).trans ((shapeCast_a_a1_apply _ hcast p 0).trans (rowSum_apply src h hφ hacc p))

/-- One row `[1, b]`, cast to its own shape and spread over `[a, b]`, reads at `(p, q)` the row's entry `q`. -/
theorem row_spread_apply {a b : ℕ} (v : (⟨2, ![1, b]⟩ : Shape).Idx → α) (hcast : (⟨2, ![1, b]⟩ : Shape).ShapeCasts ⟨2, ![1, b]⟩)
    (hbc : (⟨2, ![1, b]⟩ : Shape).Broadcasts ⟨2, ![a, b]⟩) (p : Fin a) (q : Fin b) :
    broadcastTo ⟨2, ![a, b]⟩ (shapeCast ⟨2, ![1, b]⟩ v hcast) hbc (ix2 p q) = v (ix2 (0 : Fin 1) q) :=
  (broadcastTo_1b_ab_apply _ hbc p q).trans (congrFun (shapeCast_self v hcast) _)

end Cert.LibKeepdims

end
-- ==== Proof.Payloads.lean ====
/-
  The arithmetic of one grid step, read at an index on the extended reals.

  A step holds a block of 4096 points of the first cloud and a block of 1024 points of the second. It forms the
  4096 x 1024 table of expanded squared distances |p|^2 + |q|^2 - 2 <p, q>: the squared norms are row sums of the
  squared coordinates, one kept as a column and spread over the columns, the other kept as a row and spread over
  the rows, and the inner products come from one matrix product into a zero accumulator, a sum over the three
  coordinates. From the table it takes the minimum of every column, and, lane by lane, the minimum of the eight
  tiles of 128 consecutive columns; a later step takes the minimum of each row of such a 4096 x 128 array.
  Every statement below reads one of these values at an index given by its coordinates.
-/
import proofs.«180873_g88837103551002_cont_sun_m_1114_24_alg».proof.Proof.Gen.KernelIdeal.Skeleton
import proofs.«180873_g88837103551002_cont_sun_m_1114_24_alg».proof.Proof.Spec
import proofs.«180873_g88837103551002_cont_sun_m_1114_24_alg».proof.Proof.LibKeepdims
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.Chamfer.Pay

open Cert.KernelIdeal Cert.KernelIdeal.Gen Idealize.ShloMosaic Idealize.ShloMosaic.ValueIdx

/-- The expanded squared distance between point `n` of the first block and point `q` of the second. -/
def bpd (x0 : Vec Ideal S1x4096x3 .f32) (x1 : Vec Ideal S1x1024x3 .f32) (n : Fin 4096) (q : Fin 1024) : EReal :=
  ((∑ d : Fin 3, (x0 (ix3 (0 : Fin 1) n d) : EReal) * x0 (ix3 (0 : Fin 1) n d))
      + (∑ d : Fin 3, (x1 (ix3 (0 : Fin 1) q d) : EReal) * x1 (ix3 (0 : Fin 1) q d)))
    - Cert.Chamfer.two * (∑ d : Fin 3, (x0 (ix3 (0 : Fin 1) n d) : EReal) * x1 (ix3 (0 : Fin 1) q d))

/-- The running minimum a later step stores: a cast of an array to its own shape changes nothing, and the
    minimum is taken entry by entry. -/
theorem pay1_apply (v31 : FVec Ideal S4096x128 .f32) (v45 : Vec Ideal S4096x128 .f32) (j : S4096x128.Idx) :
    k0_pay1 (F := Ideal) v31 v45 j = min (v45 j) (v31 j) := by
  unfold k0_pay1
  rw [shapeCast_self]
  rfl

/-- The first step stores the tile-wise minimum itself: the cast between is to the same shape. -/
theorem pay6_eq (x0 : Vec Ideal S1x4096x3 .f32) (x1 : Vec Ideal S1x1024x3 .f32) :
    k0_pay6 (F := Ideal) x0 x1 = k0_pay4 (F := Ideal) x0 x1 := by
  unfold k0_pay6
  exact shapeCast_self _ _

/-- The dimension numbers of the step's matrix product: rows of the first block against rows of the second,
    contracting the coordinate axis of both. -/
abbrev blockDot := dot_S4096x3_S1024x3_S4096x1024_1_1_0_0_n_n

/-- The left operand's row is the result's row. -/
theorem blockDot_lhs0 (j : S4096x1024.Idx) (c : blockDot.contr.Idx) : (blockDot.lhsIdx j c 0).val = (j 0).val := by
  unfold DotDims.lhsIdx
  rw [dif_neg (show ¬(0 : Fin S4096x3.rank) ∈ blockDot.lhsBatch by decide), dif_pos (show (0 : Fin S4096x3.rank) ∈ blockDot.lhsNonContracting by decide)]
  rfl

/-- The right operand's row is the result's column. -/
theorem blockDot_rhs0 (j : S4096x1024.Idx) (c : blockDot.contr.Idx) : (blockDot.rhsIdx j c 0).val = (j 1).val := by
  unfold DotDims.rhsIdx
  rw [dif_neg (show ¬(0 : Fin S1024x3.rank) ∈ blockDot.rhsBatch by decide), dif_pos (show (0 : Fin S1024x3.rank) ∈ blockDot.rhsNonContracting by decide)]
  rfl

/-- At result entry `(n, q)` and contraction coordinate `k` the left operand is read at `(n, k)` … -/
theorem blockDot_lhs (n : Fin 4096) (q : Fin 1024) (k : Fin 3) :
    blockDot.lhsIdx (ix2 n q) ((contrEquiv1 blockDot 3 rfl rfl).symm k) = ix2 n k := by
  funext a; apply Fin.ext
  match a with
  | ⟨0, _⟩ => exact blockDot_lhs0 _ _
  | ⟨1, _⟩ => exact (blockDot.lhsIdx_val_of_single rfl _ _).trans (contrEquiv1_symm_val blockDot 3 rfl rfl k)

/-- … and the right operand at `(q, k)`. -/
theorem blockDot_rhs (n : Fin 4096) (q : Fin 1024) (k : Fin 3) :
    blockDot.rhsIdx (ix2 n q) ((contrEquiv1 blockDot 3 rfl rfl).symm k) = ix2 q k := by
  funext a; apply Fin.ext
  match a with
  | ⟨0, _⟩ => exact blockDot_rhs0 _ _
  | ⟨1, _⟩ => exact (blockDot.rhsIdx_val_of_single rfl _ _).trans (contrEquiv1_symm_val blockDot 3 rfl rfl k)

/-- The matrix product into the zero accumulator, read at `(n, q)`: the inner product of row `n` of the left
    operand with row `q` of the right one, the contraction index replaced by its one coordinate. -/
theorem matmul_read (v1 : FVec Ideal S4096x3 .f32) (v3 : FVec Ideal S1024x3 .f32) (n : Fin 4096) (q : Fin 1024) :
    matmul blockDot none v1 v3 (constant S4096x1024 .f32 0x00000000#32) (ix2 n q) = ∑ k : Fin 3, v1 (ix2 n k) * v3 (ix2 q k) := by
  refine (Ideal.matmul_constant_zero_apply blockDot none v1 v3 (ix2 n q)).trans ?_
  rw [← Equiv.sum_comp (contrEquiv1 blockDot 3 rfl rfl).symm]
  refine Finset.sum_congr rfl fun k _ => ?_
  rw [blockDot_lhs, blockDot_rhs]

/-- The squared norms of the left operand's rows, kept as a column and spread over the columns: at `(n, q)` the
    squared norm of row `n`. -/
theorem sq0_read (v1 : FVec Ideal S4096x3 .f32) (n : Fin 4096) (q : Fin 1024) :
    broadcastTo S4096x1024 (shapeCast S4096x1 (multiReduction .add [1] S4096 (mulf v1 v1) 0x00000000#32 reduces_S4096x3_S4096 (.inl rfl) rfl) shapeCasts_S4096_S4096x1) broadcasts_S4096x1_S4096x1024 (ix2 n q)
      = ∑ k : Fin 3, v1 (ix2 n k) * v1 (ix2 n k) :=
  Cert.LibKeepdims.rowSum_column_apply (mulf v1 v1) reduces_S4096x3_S4096 (.inl rfl) rfl shapeCasts_S4096_S4096x1 broadcasts_S4096x1_S4096x1024 n q

/-- The squared norms of the right operand's rows, kept as a row and spread over the rows: at `(n, q)` the
    squared norm of row `q`. -/
theorem sq1_read (v3 : FVec Ideal S1024x3 .f32) (n : Fin 4096) (q : Fin 1024) :
    broadcastTo S4096x1024 (shapeCast S1x1024 (multiReduction .add [1] S1024 (mulf v3 v3) 0x00000000#32 reduces_S1024x3_S1024 (.inl rfl) rfl) shapeCasts_S1024_S1x1024) broadcasts_S1x1024_S4096x1024 (ix2 n q)
      = ∑ k : Fin 3, v3 (ix2 q k) * v3 (ix2 q k) :=
  (broadcastTo_1b_ab_apply _ broadcasts_S1x1024_S4096x1024 n q).trans
    ((shapeCast_a_1a_apply _ shapeCasts_S1024_S1x1024 0 q).trans
      (Cert.LibKeepdims.rowSum_apply (mulf v3 v3) reduces_S1024x3_S1024 (.inl rfl) rfl q))

/-- The table of expanded squared distances, read at `(n, q)`: the two squared norms, added, minus twice the
    inner product; both blocks drop their leading unit axis first, which leaves every entry where it was. -/
theorem pay3_apply (x0 : Vec Ideal S1x4096x3 .f32) (x1 : Vec Ideal S1x1024x3 .f32) (n : Fin 4096) (q : Fin 1024) :
    k0_pay3 (F := Ideal) x0 x1 (ix2 n q) = bpd x0 x1 n q := by
  unfold k0_pay3 bpd
  refine congrArg₂ (· - ·) (congrArg₂ (· + ·) ?_ ?_) (congrArg₂ (· * ·) rfl ?_)
  · refine (sq0_read _ n q).trans (Finset.sum_congr rfl fun k _ => ?_)
    rw [shapeCast_1ab_ab_apply]
  · refine (sq1_read _ n q).trans (Finset.sum_congr rfl fun k _ => ?_)
    rw [shapeCast_1ab_ab_apply]
  · refine (matmul_read _ _ n q).trans (Finset.sum_congr rfl fun k _ => ?_)
    rw [shapeCast_1ab_ab_apply, shapeCast_1ab_ab_apply]

/-- A minimum along ONE axis from the pattern of plus infinity, at the ideal values: the fold of `min`, from the
    value of the pattern, over that axis's coordinates, each put back into the reduced index. -/
theorem multiReduction_minimumf_single {φ : FTy} {s t : Shape} {a : Fin s.rank} (src : FVec Ideal s φ) (acc : BitVec φ.bits)
    (h : s.Reduces [a] t) (hφ : FKind.Formats φ) (hacc : acc = FKind.minimumf.neutral φ hφ) (j : t.Idx) :
    multiReduction .minimumf [a] t src acc h hφ hacc j
      = (Finset.univ : Finset (Fin (s.size a))).fold min (FloatOps.ofBits φ acc) (src ∘ h.lift j) := by
  rw [multiReduction_minimumf_eq_fold]; exact h.fold_filter_drop_single _ _ src j

/-- An `[a]` vector cast to `[1, 1, a]` reads, at `(u, v, i)`, the vector at `i`: both positions are the
    `i`-th in row-major order, whatever the two unit coordinates. -/
theorem shapeCast_a_11a_apply {α : Type} {a : ℕ} (x : (⟨1, ![a]⟩ : Shape).Idx → α) (h : (⟨1, ![a]⟩ : Shape).ShapeCasts ⟨3, ![1, 1, a]⟩)
    (u v : Fin 1) (i : Fin a) : shapeCast ⟨3, ![1, 1, a]⟩ x h (ix3 u v i) = x (ix1 i) :=
  shapeCast_apply x h _ _ (by
    have hu : u.val = 0 := by omega
    have hv : v.val = 0 := by omega
    rw [Shape.rowMajor_val_three, Shape.rowMajor_val_one]
    show i.val = (u.val * 1 + v.val) * a + i.val
    rw [hu, hv]
    simp)

/-- Putting the row coordinate `k` back into the reduced index `q` of a minimum down the columns gives the
    entry `(k, q)`. -/
theorem lift_rows {m n : ℕ} (h : (⟨2, ![m, n]⟩ : Shape).Reduces [0] (⟨1, ![n]⟩ : Shape)) (q : Fin n)
    (k : Fin ((⟨2, ![m, n]⟩ : Shape).size 0)) : h.lift (ix1 q) k = ix2 (⟨k.val, k.isLt⟩ : Fin m) q := by
  funext c; apply Fin.ext
  fin_cases c <;> rfl

/-- The minimum of every column of an `[m, n]` array, read at column `q`: the fold over the rows. -/
theorem colMin_apply {m n : ℕ} (src : FVec Ideal ⟨2, ![m, n]⟩ .f32) (h : (⟨2, ![m, n]⟩ : Shape).Reduces [0] (⟨1, ![n]⟩ : Shape))
    (hφ : FKind.Formats .f32) (hacc : (0x7F800000#32 : BitVec 32) = 0x7F800000#32) (q : Fin n) :
    multiReduction .minimumf [0] (⟨1, ![n]⟩ : Shape) src 0x7F800000#32 h hφ hacc (ix1 q)
      = (Finset.univ : Finset (Fin m)).fold min Cert.Chamfer.top (fun k => src (ix2 k q)) := by
  refine (multiReduction_minimumf_single src 0x7F800000#32 h hφ hacc (ix1 q)).trans ?_
  exact congrArg (Finset.fold min _ · _) (funext fun k => congrArg src (lift_rows h q k))

/-- The minimum of every row of an `[m, n]` array, read at row `p`: the fold over the columns. -/
theorem rowMin_apply {m n : ℕ} (src : FVec Ideal ⟨2, ![m, n]⟩ .f32) (h : (⟨2, ![m, n]⟩ : Shape).Reduces [1] (⟨1, ![m]⟩ : Shape))
    (hφ : FKind.Formats .f32) (hacc : (0x7F800000#32 : BitVec 32) = 0x7F800000#32) (p : Fin m) :
    multiReduction .minimumf [1] (⟨1, ![m]⟩ : Shape) src 0x7F800000#32 h hφ hacc (ix1 p)
      = (Finset.univ : Finset (Fin n)).fold min Cert.Chamfer.top (fun k => src (ix2 p k)) := by
  refine (multiReduction_minimumf_single src 0x7F800000#32 h hφ hacc (ix1 p)).trans ?_
  exact congrArg (Finset.fold min _ · _) (funext fun k => congrArg src (Cert.LibKeepdims.lift_cols h p k))

/-- The column minima of the table, kept as `[1, 1, 1024]`: at column `q` the least expanded squared distance
    from a point of the first block to point `q` of the second, folded from plus infinity. -/
theorem pay5_apply (x0 : Vec Ideal S1x4096x3 .f32) (x1 : Vec Ideal S1x1024x3 .f32) (q : Fin 1024) :
    k0_pay5 (F := Ideal) x0 x1 (ix3 (0 : Fin 1) (0 : Fin 1) q)
      = (Finset.univ : Finset (Fin 4096)).fold min Cert.Chamfer.top (fun n => bpd x0 x1 n q) := by
  unfold k0_pay5
  refine (shapeCast_a_11a_apply _ shapeCasts_S1024_S1x1x1024 0 0 q).trans ?_
  refine (colMin_apply (k0_pay3 (F := Ideal) x0 x1) reduces_S4096x1024_S1024 (.inl rfl) rfl q).trans ?_
  exact congrArg (Finset.fold min _ · _) (funext fun n => pay3_apply x0 x1 n q)

/-- The row minima of a `[4096, 128]` array, kept as `[1, 1, 4096]`: at row `n` the fold over its 128 lanes. -/
theorem pay2_apply (v45 : Vec Ideal S4096x128 .f32) (n : Fin 4096) :
    k0_pay2 (F := Ideal) v45 (ix3 (0 : Fin 1) (0 : Fin 1) n)
      = (Finset.univ : Finset (Fin 128)).fold min Cert.Chamfer.top (fun l => v45 (ix2 n l)) := by
  unfold k0_pay2
  refine (shapeCast_a_11a_apply _ shapeCasts_S4096_S1x1x4096 0 0 n).trans ?_
  exact rowMin_apply v45 reduces_S4096x128_S4096 (.inl rfl) rfl n

/-- One tile of the table: the 128 columns from `o` on, read at `(n, l)`, are the table at column `o + l`. -/
theorem tile_read (x0 : Vec Ideal S1x4096x3 .f32) (x1 : Vec Ideal S1x1024x3 .f32) (o : ℕ)
    (h : S4096x1024.Slices ![0, o] S4096x128) (n : Fin 4096) (l : Fin 128) (k : Fin 1024) (hk : k.val = o + l.val) :
    extractStridedSlice S4096x128 ![0, o] (k0_pay3 (F := Ideal) x0 x1) h (ix2 n l) = bpd x0 x1 n k :=
  (slice2_axis1_apply o _ h n l k hk).trans (pay3_apply x0 x1 n k)

/-- The lane-wise minimum of the eight tiles, by its lower bounds: `c` is below it at `(n, l)` exactly when it is
    below the table's entry of row `n` at lane `l` of every tile. -/
theorem le_pay4_iff (x0 : Vec Ideal S1x4096x3 .f32) (x1 : Vec Ideal S1x1024x3 .f32) (n : Fin 4096) (l : Fin 128) (c : EReal) :
    c ≤ k0_pay4 (F := Ideal) x0 x1 (ix2 n l) ↔ ∀ k : Fin 8, c ≤ bpd x0 x1 n ⟨128 * k.val + l.val, by omega⟩ := by
  have hl := l.isLt
  have e : k0_pay4 (F := Ideal) x0 x1 (ix2 n l)
      = min (min (min (min (min (min (min (bpd x0 x1 n ⟨128 * 0 + l.val, by omega⟩) (bpd x0 x1 n ⟨128 * 1 + l.val, by omega⟩))
          (bpd x0 x1 n ⟨128 * 2 + l.val, by omega⟩)) (bpd x0 x1 n ⟨128 * 3 + l.val, by omega⟩))
          (bpd x0 x1 n ⟨128 * 4 + l.val, by omega⟩)) (bpd x0 x1 n ⟨128 * 5 + l.val, by omega⟩))
          (bpd x0 x1 n ⟨128 * 6 + l.val, by omega⟩)) (bpd x0 x1 n ⟨128 * 7 + l.val, by omega⟩) := by
    unfold k0_pay4
    exact congrArg₂ min (congrArg₂ min (congrArg₂ min (congrArg₂ min (congrArg₂ min (congrArg₂ min (congrArg₂ min
      (tile_read x0 x1 0 slices_S4096x1024_o0_0_S4096x128 n l _ rfl)
      (tile_read x0 x1 128 slices_S4096x1024_o0_128_S4096x128 n l _ rfl))
      (tile_read x0 x1 256 slices_S4096x1024_o0_256_S4096x128 n l _ rfl))
      (tile_read x0 x1 384 slices_S4096x1024_o0_384_S4096x128 n l _ rfl))
      (tile_read x0 x1 512 slices_S4096x1024_o0_512_S4096x128 n l _ rfl))
      (tile_read x0 x1 640 slices_S4096x1024_o0_640_S4096x128 n l _ rfl))
      (tile_read x0 x1 768 slices_S4096x1024_o0_768_S4096x128 n l _ rfl))
      (tile_read x0 x1 896 slices_S4096x1024_o0_896_S4096x128 n l _ rfl)
  rw [e]
  simp only [le_min_iff]
  constructor
  · rintro ⟨⟨⟨⟨⟨⟨⟨h0, h1⟩, h2⟩, h3⟩, h4⟩, h5⟩, h6⟩, h7⟩ k
    fin_cases k
    exacts [h0, h1, h2, h3, h4, h5, h6, h7]
  · intro h
    exact ⟨⟨⟨⟨⟨⟨⟨h 0, h 1⟩, h 2⟩, h 3⟩, h 4⟩, h 5⟩, h 6⟩, h 7⟩

end Cert.Chamfer.Pay

end
-- ==== Proof.KI.Value.lean ====
/-
  What the idealized kernel computes. Each grid point works on batch `t / 4` and on columns `1024·(t % 4) …` of the second
  cloud. The step's column minima are already the distances from those points of the second cloud to the first cloud. The
  row minima are gathered in two stages: lane by lane across the batch's four steps and each step's eight lane tiles (the
  running minima in the scratch), then across the 128 lanes at the batch's last step. A fold of `min` is determined by its
  lower bounds, and the lower bounds of the staged minimum are exactly those of the minimum over all 4096 columns, because
  every column is one step's, one lane tile's, one lane's. The blocks written back tile the two [8, 1, 4096] results, and the
  two lines after the region drop the unit axis.
-/
import proofs.«180873_g88837103551002_cont_sun_m_1114_24_alg».proof.Proof.KI.Run
import proofs.«180873_g88837103551002_cont_sun_m_1114_24_alg».proof.Proof.Spec
import proofs.«180873_g88837103551002_cont_sun_m_1114_24_alg».proof.Proof.Payloads
import Idealize.ShloMosaic.Lib.Pipeline.Value
import Idealize.ShloMosaic.Lib.ValueIdx

set_option maxRecDepth 16384

noncomputable section

open scoped BigOperators

namespace Cert.KernelIdeal.Val

open Idealize.ShloMosaic Idealize.ShloMosaic.TcCoe Idealize.SL.Sem Idealize.ShloMosaic.ValueIdx
open Idealize.ShloMosaic.Pipeline (Dat)
open Cert.KernelIdeal Cert.KernelIdeal.Gen Cert.KernelIdeal.Body Cert.Chamfer

variable (m : (ℓ : Loc nD τ sig) → Buf (Elt Ideal) ℓ) (ρ : Dev nD → PrngReg)

/-- The two clouds as the program finds them. -/
abbrev X (c : Dev nD) : Cloud := m ((c : Thread nD τ).loc main_arg0)
abbrev Y (c : Dev nD) : Cloud := m ((c : Thread nD τ).loc main_arg1)

/-- The batch of the point at position `k` of the grid's order, and a column of the second cloud from its step `j`,
    lane tile `s` and lane `l` (both reduced into range, so that no bound has to be carried). -/
def bat (k : ℕ) : Fin 8 := ⟨(k / 4) % 8, Nat.mod_lt _ (by norm_num)⟩
def col (j s l : ℕ) : Fin 4096 := ⟨(1024 * j + 128 * s + l) % 4096, Nat.mod_lt _ (by norm_num)⟩

/-- Where each window's block sits at a point: batch `t / 4`, and for the second cloud and the column minima step `t % 4`. -/
theorem idx_facts : ∀ t : Fin cfg0.N,
    win0_0.index t (0 : Fin 3) = t.val / 4 ∧ win0_0.index t (1 : Fin 3) = 0 ∧ win0_0.index t (2 : Fin 3) = 0
    ∧ win0_1.index t (0 : Fin 3) = t.val / 4 ∧ win0_1.index t (1 : Fin 3) = t.val % 4 ∧ win0_1.index t (2 : Fin 3) = 0
    ∧ win0_2.index t (0 : Fin 3) = t.val / 4 ∧ win0_2.index t (1 : Fin 3) = 0 ∧ win0_2.index t (2 : Fin 3) = 0
    ∧ win0_3.index t (0 : Fin 3) = t.val / 4 ∧ win0_3.index t (1 : Fin 3) = 0 ∧ win0_3.index t (2 : Fin 3) = t.val % 4 :=
  (by decide +kernel : ∀ t : Fin grid0.N, _)

theorem tN (t : Fin cfg0.N) : t.val < 32 := lt_of_lt_of_eq t.isLt (show cfg0.N = 32 from N_0)

/-- The first window's block at point `t` is the whole batch `t / 4` of the first cloud. -/
theorem iblk0_apply (c : Dev nD) (t : Fin cfg0.N) (n : Fin 4096) (d : Fin 3) :
    (iblk m c 0 t : Vec Ideal S1x4096x3 .f32) (ix3 (0 : Fin 1) n d) = X m c (ix3 (bat t.val) n d) := by
  obtain ⟨e0, e1, e2, -⟩ := idx_facts t
  have ht := tN t
  unfold iblk
  rw [View.read_apply]
  show V m c main_arg0 _ = m (c.tc.loc main_arg0) _
  unfold V
  refine congrArg _ (funext fun a => Fin.ext ?_)
  match a with
  | ⟨0, _⟩ => show win0_0.index t (0 : Fin 3) * 1 + 1 * 0 = (t.val / 4) % 8; omega
  | ⟨1, _⟩ => show win0_0.index t (1 : Fin 3) * 4096 + 1 * n.val = n.val; omega
  | ⟨2, _⟩ => show win0_0.index t (2 : Fin 3) * 3 + 1 * d.val = d.val; omega

/-- The second window's block at point `t` is points `1024·(t % 4) …` of batch `t / 4` of the second cloud. -/
theorem iblk1_apply (c : Dev nD) (t : Fin cfg0.N) (q : Fin 1024) (d : Fin 3) :
    (iblk m c 1 t : Vec Ideal S1x1024x3 .f32) (ix3 (0 : Fin 1) q d) = Y m c (ix3 (bat t.val) (col (t.val % 4) 0 q.val) d) := by
  obtain ⟨-, -, -, e0, e1, e2, -⟩ := idx_facts t
  have ht := tN t
  unfold iblk
  rw [View.read_apply]
  show V m c main_arg1 _ = m (c.tc.loc main_arg1) _
  unfold V
  refine congrArg _ (funext fun a => Fin.ext ?_)
  match a with
  | ⟨0, _⟩ => show win0_1.index t (0 : Fin 3) * 1 + 1 * 0 = (t.val / 4) % 8; omega
  | ⟨1, _⟩ => show win0_1.index t (1 : Fin 3) * 1024 + 1 * q.val = (1024 * (t.val % 4) + 128 * 0 + q.val) % 4096; have := q.isLt; omega
  | ⟨2, _⟩ => show win0_1.index t (2 : Fin 3) * 3 + 1 * d.val = d.val; omega

/-- The squared distances of a point's blocks are those of the clouds, at the point's batch and columns. -/
theorem bpd_blk (c : Dev nD) (t : Fin cfg0.N) (n : Fin 4096) (q : Fin 1024) :
    Pay.bpd (iblk m c 0 t) (iblk m c 1 t) n q = pd (X m c) (Y m c) (bat t.val) n (col (t.val % 4) 0 q.val) := by
  unfold Pay.bpd pd sqn Cert.Chamfer.inner
  simp only [iblk0_apply, iblk1_apply]

/-- A step's lane-tile minima at `(n, l)`, by their lower bounds: below every squared distance from `n` to the step's
    eight columns of lane `l`. -/
theorem le_pay4_blk (c : Dev nD) (t : Fin cfg0.N) (n : Fin 4096) (l : Fin 128) (e : EReal) :
    e ≤ k0_pay4 (F := Ideal) (iblk m c 0 t) (iblk m c 1 t) (ix2 n l)
      ↔ ∀ s : Fin 8, e ≤ pd (X m c) (Y m c) (bat t.val) n (col (t.val % 4) s.val l.val) := by
  rw [Pay.le_pay4_iff]
  refine forall_congr' fun s => ?_
  rw [bpd_blk]
  have hc : col (t.val % 4) 0 (128 * s.val + l.val) = col (t.val % 4) s.val l.val := Fin.ext (by
    show (1024 * (t.val % 4) + 128 * 0 + (128 * s.val + l.val)) % 4096 = (1024 * (t.val % 4) + 128 * s.val + l.val) % 4096
    congr 1; omega)
  rw [hc]

/-- The running lane-tile minima after position `k`, by their lower bounds: below every squared distance from `n` to
    the columns of lane `l` seen in the batch's steps so far. -/
theorem le_acc_iff (c : Dev nD) : ∀ (k : ℕ) (hk : k < cfg0.N) (n : Fin 4096) (l : Fin 128) (e : EReal),
    e ≤ accAt m c k hk (ix2 n l)
      ↔ ∀ j : ℕ, j ≤ k % 4 → ∀ s : Fin 8, e ≤ pd (X m c) (Y m c) (bat k) n (col j s.val l.val) := by
  intro k
  induction k with
  | zero =>
    intro hk n l e
    rw [accAt_first m c ⟨0, hk⟩ rfl, Pay.pay6_eq, le_pay4_blk]
    constructor
    · intro h j hj s
      obtain rfl : j = 0 := by omega
      exact h s
    · intro h s; exact h 0 (Nat.zero_le _) s
  | succ k ih =>
    intro hk n l e
    by_cases h0 : (k + 1) % 4 = 0
    · rw [accAt_first m c ⟨k + 1, hk⟩ h0, Pay.pay6_eq, le_pay4_blk]
      show (∀ s : Fin 8, e ≤ pd (X m c) (Y m c) (bat (k + 1)) n (col ((k + 1) % 4) s.val l.val)) ↔ _
      rw [h0]
      constructor
      · intro h j hj s
        obtain rfl : j = 0 := by omega
        exact h s
      · intro h s; exact h 0 (Nat.zero_le _) s
    · rw [accAt_later m c ⟨k + 1, hk⟩ h0, Pay.pay1_apply, le_min_iff]
      show (e ≤ accAt m c k _ (ix2 n l) ∧ e ≤ k0_pay4 (F := Ideal) (iblk m c 0 ⟨k + 1, hk⟩) (iblk m c 1 ⟨k + 1, hk⟩) (ix2 n l)) ↔ _
      rw [ih (Nat.lt_of_succ_lt hk) n l e, le_pay4_blk]
      show ((∀ j : ℕ, j ≤ k % 4 → ∀ s : Fin 8, e ≤ pd (X m c) (Y m c) (bat k) n (col j s.val l.val))
          ∧ ∀ s : Fin 8, e ≤ pd (X m c) (Y m c) (bat (k + 1)) n (col ((k + 1) % 4) s.val l.val)) ↔ _
      have hb : bat k = bat (k + 1) := Fin.ext (by show (k / 4) % 8 = ((k + 1) / 4) % 8; omega)
      rw [hb]
      constructor
      · rintro ⟨h1, h2⟩ j hj s
        by_cases hj' : j ≤ k % 4
        · exact h1 j hj' s
        · obtain rfl : j = (k + 1) % 4 := by omega
          exact h2 s
      · intro h
        exact ⟨fun j hj s => h j (by omega) s, fun s => h _ (Nat.le_refl _) s⟩

/-- Every column of the second cloud is some step's, lane tile's and lane's. -/
theorem col_onto (q : Fin 4096) : col (q.val / 1024) ((q.val % 1024) / 128) (q.val % 128) = q :=
  Fin.ext (by show (1024 * (q.val / 1024) + 128 * ((q.val % 1024) / 128) + q.val % 128) % 4096 = q.val; have := q.isLt; omega)

/-- At a batch's last step the row minima of the running lane-tile minima are the distances from the first cloud's
    points to the second cloud. -/
theorem rowmin_last (c : Dev nD) (t : Fin cfg0.N) (h3 : t.val % 4 = 3) (n : Fin 4096) :
    k0_pay2 (F := Ideal) (accAt m c t.val t.isLt) (ix3 (0 : Fin 1) (0 : Fin 1) n) = dist1 (X m c) (Y m c) (bat t.val) n := by
  rw [Pay.pay2_apply]
  refine eq_of_lower fun e => ?_
  rw [le_foldmin_iff, le_dist1_iff]
  refine and_congr_right fun _ => ?_
  constructor
  · intro h q
    have := (le_acc_iff m c t.val t.isLt n ⟨q.val % 128, Nat.mod_lt _ (by norm_num)⟩ e).mp (h _) (q.val / 1024)
      (by have := q.isLt; omega) ⟨(q.val % 1024) / 128, by omega⟩
    rwa [col_onto] at this
  · intro h l
    exact (le_acc_iff m c t.val t.isLt n l e).mpr fun j _ s => h _

/-- At every step the column minima are the distances from the step's points of the second cloud to the first cloud. -/
theorem colmin (c : Dev nD) (t : Fin cfg0.N) (q : Fin 1024) :
    k0_pay5 (F := Ideal) (iblk m c 0 t) (iblk m c 1 t) (ix3 (0 : Fin 1) (0 : Fin 1) q)
      = dist2 (X m c) (Y m c) (bat t.val) (col (t.val % 4) 0 q.val) := by
  rw [Pay.pay5_apply]
  unfold dist2
  exact Finset.fold_congr fun n _ => bpd_blk m c t n q

/-! ## The two result arrays of the region -/

/-- The region's two result arrays, of shape [8, 1, 4096]: the distances at `(b, ·, n)`. -/
def arr1 (c : Dev nD) : Buf (Elt Ideal) ((c : Thread nD τ).loc main_v0_0) :=
  fun i => dist1 (X m c) (Y m c) ⟨(i 0).val, (i 0).isLt⟩ ⟨(i 2).val, (i 2).isLt⟩
def arr2 (c : Dev nD) : Buf (Elt Ideal) ((c : Thread nD τ).loc main_v0_1) :=
  fun i => dist2 (X m c) (Y m c) ⟨(i 0).val, (i 0).isLt⟩ ⟨(i 2).val, (i 2).isLt⟩

/-- What a batch's last step writes back is the batch's row of the first result. -/
theorem flushed2_eq (c : Dev nD) (t : Fin cfg0.N) (hf : (cfg0.win 2).flush t = true) :
    (dats m 0 c).flushed 2 t = ((cfg0.win 2).blk t).view.read (Elt Ideal) (arr1 m c) := by
  have h3 : t.val % 4 = 3 := (flush0_2 t).mp hf
  obtain ⟨-, -, -, -, -, -, e0, e1, e2, -⟩ := idx_facts t
  have ht := tN t
  show (cfg0.win 2).cut (grid0.coords t) ((dats m 0 c).after 2 t) = _
  rw [after_2]
  funext (y : S1x1x4096.Idx)
  obtain ⟨u, v, n, rfl⟩ : ∃ (u : Fin 1) (v : Fin 1) (n : Fin 4096), y = ix3 u v n := ⟨y 0, y 1, y 2, eq_ix3 y⟩
  obtain rfl : u = 0 := Subsingleton.elim _ _
  obtain rfl : v = 0 := Subsingleton.elim _ _
  refine (rowmin_last m c t h3 n).trans ?_
  rw [View.read_apply]
  show _ = arr1 m c (((cfg0.win 2).blk t).view.emb (ix3 (0 : Fin 1) (0 : Fin 1) n))
  unfold arr1
  congr 1
  · exact Fin.ext (by show (t.val / 4) % 8 = win0_2.index t (0 : Fin 3) * 1 + 1 * 0; omega)
  · exact Fin.ext (by show n.val = win0_2.index t (2 : Fin 3) * 4096 + 1 * n.val; omega)

/-- What every step writes back is its stretch of the batch's row of the second result. -/
theorem flushed3_eq (c : Dev nD) (t : Fin cfg0.N) :
    (dats m 0 c).flushed 3 t = ((cfg0.win 3).blk t).view.read (Elt Ideal) (arr2 m c) := by
  obtain ⟨-, -, -, -, -, -, -, -, -, e0, e1, e2⟩ := idx_facts t
  have ht := tN t
  show (cfg0.win 3).cut (grid0.coords t) ((dats m 0 c).after 3 t) = _
  rw [after_3]
  funext (y : S1x1x1024.Idx)
  obtain ⟨u, v, q, rfl⟩ : ∃ (u : Fin 1) (v : Fin 1) (q : Fin 1024), y = ix3 u v q := ⟨y 0, y 1, y 2, eq_ix3 y⟩
  obtain rfl : u = 0 := Subsingleton.elim _ _
  obtain rfl : v = 0 := Subsingleton.elim _ _
  refine (colmin m c t q).trans ?_
  rw [View.read_apply]
  show _ = arr2 m c (((cfg0.win 3).blk t).view.emb (ix3 (0 : Fin 1) (0 : Fin 1) q))
  unfold arr2
  congr 1
  · exact Fin.ext (by show (t.val / 4) % 8 = win0_3.index t (0 : Fin 3) * 1 + 1 * 0; omega)
  · exact Fin.ext (by show (1024 * (t.val % 4) + 128 * 0 + q.val) % 4096 = win0_3.index t (2 : Fin 3) * 1024 + 1 * q.val; have := q.isLt; omega)

/-- An index of a result array lies in point `t`'s block of window 2 / window 3 iff each coordinate is in the block's range. -/
theorem mem_blk2 (t : Fin cfg0.N) (i : S8x1x4096.Idx) :
    i ∈ ((cfg0.win 2).blk t).view.set ↔ ∀ a : Fin 3, win0_2.index t a * S1x1x4096.size a ≤ (i a).val ∧ (i a).val < win0_2.index t a * S1x1x4096.size a + S1x1x4096.size a := by
  show i ∈ ((View.whole main_v0_0).slice (win0_2.rect t)).set ↔ _
  rw [View.set_slice_whole, Rect.mem_set_unit]
  exact Iff.rfl
theorem mem_blk3 (t : Fin cfg0.N) (i : S8x1x4096.Idx) :
    i ∈ ((cfg0.win 3).blk t).view.set ↔ ∀ a : Fin 3, win0_3.index t a * S1x1x1024.size a ≤ (i a).val ∧ (i a).val < win0_3.index t a * S1x1x1024.size a + S1x1x1024.size a := by
  show i ∈ ((View.whole main_v0_1).slice (win0_3.rect t)).set ↔ _
  rw [View.set_slice_whole, Rect.mem_set_unit]
  exact Iff.rfl

/-- Batch `b`'s row of the first result is written back at the batch's last step. -/
theorem cover2 (i : S8x1x4096.Idx) : ∃ t : Fin cfg0.N, (cfg0.win 2).flush t = true ∧ i ∈ ((cfg0.win 2).blk t).view.set := by
  have h0 : (i 0).val < 8 := (i 0).isLt
  have h1 : (i 1).val < 1 := (i 1).isLt
  have h2 : (i 2).val < 4096 := (i 2).isLt
  have hN : cfg0.N = 32 := N_0
  refine ⟨⟨4 * (i 0).val + 3, by omega⟩, (flush0_2 _).mpr (by show (4 * (i 0).val + 3) % 4 = 3; omega), ?_⟩
  obtain ⟨-, -, -, -, -, -, e0, e1, e2, -⟩ := idx_facts ⟨4 * (i 0).val + 3, by omega⟩
  rw [mem_blk2]
  intro a
  match a with
  | ⟨0, _⟩ => show win0_2.index _ (0 : Fin 3) * 1 ≤ (i 0).val ∧ (i 0).val < win0_2.index _ (0 : Fin 3) * 1 + 1; rw [e0]; show (4 * (i 0).val + 3) / 4 * 1 ≤ (i 0).val ∧ (i 0).val < (4 * (i 0).val + 3) / 4 * 1 + 1; omega
  | ⟨1, _⟩ => show win0_2.index _ (1 : Fin 3) * 1 ≤ (i 1).val ∧ (i 1).val < win0_2.index _ (1 : Fin 3) * 1 + 1; rw [e1]; omega
  | ⟨2, _⟩ => show win0_2.index _ (2 : Fin 3) * 4096 ≤ (i 2).val ∧ (i 2).val < win0_2.index _ (2 : Fin 3) * 4096 + 4096; rw [e2]; omega

/-- Every stretch of 1024 columns of batch `b`'s row of the second result is written back at its step. -/
theorem cover3 (i : S8x1x4096.Idx) : ∃ t : Fin cfg0.N, (cfg0.win 3).flush t = true ∧ i ∈ ((cfg0.win 3).blk t).view.set := by
  have h0 : (i 0).val < 8 := (i 0).isLt
  have h1 : (i 1).val < 1 := (i 1).isLt
  have h2 : (i 2).val < 4096 := (i 2).isLt
  have hN : cfg0.N = 32 := N_0
  refine ⟨⟨4 * (i 0).val + (i 2).val / 1024, by omega⟩, flush0_3 _, ?_⟩
  obtain ⟨-, -, -, -, -, -, -, -, -, e0, e1, e2⟩ := idx_facts ⟨4 * (i 0).val + (i 2).val / 1024, by omega⟩
  rw [mem_blk3]
  intro a
  match a with
  | ⟨0, _⟩ => show win0_3.index _ (0 : Fin 3) * 1 ≤ (i 0).val ∧ (i 0).val < win0_3.index _ (0 : Fin 3) * 1 + 1; rw [e0]; show (4 * (i 0).val + (i 2).val / 1024) / 4 * 1 ≤ (i 0).val ∧ (i 0).val < (4 * (i 0).val + (i 2).val / 1024) / 4 * 1 + 1; omega
  | ⟨1, _⟩ => show win0_3.index _ (1 : Fin 3) * 1 ≤ (i 1).val ∧ (i 1).val < win0_3.index _ (1 : Fin 3) * 1 + 1; rw [e1]; omega
  | ⟨2, _⟩ => show win0_3.index _ (2 : Fin 3) * 1024 ≤ (i 2).val ∧ (i 2).val < win0_3.index _ (2 : Fin 3) * 1024 + 1024; rw [e2]; show (4 * (i 0).val + (i 2).val / 1024) % 4 * 1024 ≤ (i 2).val ∧ (i 2).val < (4 * (i 0).val + (i 2).val / 1024) % 4 * 1024 + 1024; omega

/-- So the region's two result arrays end at the distances. -/
theorem final2 (c : Dev nD) : (dats m 0 c).arrAt 2 cfg0.N = arr1 m c :=
  (dats m 0 c).arrAt_eq_of_cover 2 (arr1 m c) (flushed2_eq m c) cover2
theorem final3 (c : Dev nD) : (dats m 0 c).arrAt 3 cfg0.N = arr2 m c :=
  (dats m 0 c).arrAt_eq_of_cover 3 (arr2 m c) (fun t _ => flushed3_eq m c t) cover3

/-! ## The lines after the region: the unit axis dropped -/

/-- An [8, 1, 4096] array recast to [8, 4096] reads at `(b, n)` its entry `(b, 0, n)`. -/
theorem drop_mid (z : S8x1x4096.Idx → EReal) (b : Fin 8) (n : Fin 4096) :
    shapeCast S8x4096 z shapeCasts_S8x1x4096_S8x4096 (ix2 b n) = z (ix3 b (0 : Fin 1) n) :=
  shapeCast_apply z _ (ix2 b n) (ix3 b (0 : Fin 1) n) (by
    rw [Shape.rowMajor_val_three, Shape.rowMajor_val_two]
    show (b.val * 1 + 0) * 4096 + n.val = b.val * 4096 + n.val
    omega)

theorem tail1 (c : Dev nD) :
    Pipeline.afterTail₀ cfgs (dats m) 0 (V0 m) [hostOps1] c main_v1 = out1 (X m c) (Y m c) := by
  unfold Pipeline.afterTail₀
  show StableHlo.after hostOps1 _ (Proc.devRef .tc main_v1) = _
  after_results
  rw [show Pipeline.withArrays (cfgs 0).spec c (V0 m c) (fun w => (dats m 0 c).arrAt w (cfgs 0).N) (Proc.devRef .tc main_v0_0) = arr1 m c from
    (Pipeline.withArrays_arr spec0 launch0.win.arr_inj c _ _ 2).trans (final2 m c)]
  funext i
  obtain ⟨b, n, rfl⟩ : ∃ (b : Fin 8) (n : Fin 4096), i = ix2 b n := ⟨i 0, i 1, eq_ix2 i⟩
  rw [out1_ix2]
  exact drop_mid _ b n

theorem tail2 (c : Dev nD) :
    Pipeline.afterTail₀ cfgs (dats m) 0 (V0 m) [hostOps1] c main_v2 = out2 (X m c) (Y m c) := by
  unfold Pipeline.afterTail₀
  show StableHlo.after hostOps1 _ (Proc.devRef .tc main_v2) = _
  after_results
  rw [show Pipeline.withArrays (cfgs 0).spec c (V0 m c) (fun w => (dats m 0 c).arrAt w (cfgs 0).N) (Proc.devRef .tc main_v0_1) = arr2 m c from
    (Pipeline.withArrays_arr spec0 launch0.win.arr_inj c _ _ 3).trans (final3 m c)]
  funext i
  obtain ⟨b, n, rfl⟩ : ∃ (b : Fin 8) (n : Fin 4096), i = ix2 b n := ⟨i 0, i 1, eq_ix2 i⟩
  rw [out2_ix2]
  exact drop_mid _ b n

/-! ## The run, read -/

/-- Every execution of the idealized kernel ends with its two results at the distances of the specification and its
    arguments unchanged. -/
theorem run : θ_run defs (onTc (τ := τ) (main (F := Ideal))) ⟨m, fun _ => 0, ρ⟩ fun r => ∀ c : Dev nD,
      r.2.mem ((c.tc : Thread nD τ).loc main_v1) = out1 (X m c) (Y m c)
      ∧ r.2.mem ((c.tc : Thread nD τ).loc main_v2) = out2 (X m c) (Y m c)
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨((h c).2 main_v1 (by decide)).trans (tail1 m c),
      ((h c).2 main_v2 (by decide)).trans (tail2 m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c)))⟩)
    (run_main m ρ)

end Cert.KernelIdeal.Val

end
-- ==== Proof.Ref.lean ====
/-
  The reference program computes the chamfer distance of the specification.

  Its stages are read one element at a time. The squared norms are sums of three squares started from the zero word,
  the inner products are the contraction over the coordinate axis, the two spreadings put the norm of point `n` of the
  first cloud on every column and the norm of point `m` of the second on every row, and the last elementwise stages
  form (|x|² + |y|²) − 2·⟨x, y⟩. The two results are minima of this array along its last and its middle axis: each is a
  fold of `min` over the coordinates of the dropped axis, started from the word both programs use for +∞.
-/
import proofs.«180873_g88837103551002_cont_sun_m_1114_24_alg».proof.Proof.Gen.ReferenceIdeal.Read
import proofs.«180873_g88837103551002_cont_sun_m_1114_24_alg».proof.Proof.Spec
import Idealize.ShloMosaic.Lib.ValueIdx
import Idealize.ShloMosaic.Lib.Pipeline.Value
import Idealize.ShloMosaic.PureOps.Ideal.Laws

noncomputable section

open scoped BigOperators

namespace Cert.Chamfer.Ref

open Cert.ReferenceIdeal Cert.ReferenceIdeal.Gen Cert.ReferenceIdeal.Read Idealize.ShloMosaic Idealize.ShloMosaic.ValueIdx

/-- The squared norms of the first cloud: the sum of squares over the three coordinates, from zero. -/
theorem v1_ix2 (x : (⟨S8x4096x3, .f32⟩ : BufTy).Contents (Elt Ideal)) (b : Fin 8) (n : Fin 4096) :
    val_main_v1 (F := Ideal) x (ix2 b n) = Cert.Chamfer.sqn x b n := by
  rw [val_main_v1_apply, val_main_cst_apply]
  refine (congrArg (· + _) Ideal.ofBits_zero_f32).trans ?_
  rw [zero_add]
  unfold Cert.Chamfer.sqn
  refine Finset.sum_congr rfl fun d _ => ?_
  rw [val_main_v0_apply]
  have e : idx_main_v1 (ix2 b n) d = ix3 b n d :=
    funext fun a => Fin.ext (by match a with | ⟨0, _⟩ => rfl | ⟨1, _⟩ => rfl | ⟨2, _⟩ => rfl)
  rw [e]; rfl

/-- The squared norms of the second cloud, likewise. -/
theorem v3_ix2 (y : (⟨S8x4096x3, .f32⟩ : BufTy).Contents (Elt Ideal)) (b : Fin 8) (m : Fin 4096) :
    val_main_v3 (F := Ideal) y (ix2 b m) = Cert.Chamfer.sqn y b m := by
  rw [val_main_v3_apply, val_main_cst_0_apply]
  refine (congrArg (· + _) Ideal.ofBits_zero_f32).trans ?_
  rw [zero_add]
  unfold Cert.Chamfer.sqn
  refine Finset.sum_congr rfl fun d _ => ?_
  rw [val_main_v2_apply]
  have e : idx_main_v3 (ix2 b m) d = ix3 b m d :=
    funext fun a => Fin.ext (by match a with | ⟨0, _⟩ => rfl | ⟨1, _⟩ => rfl | ⟨2, _⟩ => rfl)
  rw [e]; rfl

/-- The contraction over the coordinate axis is the inner product of point `n` of `x` with point `m` of `y`. -/
theorem v4_ix3 (x y : (⟨S8x4096x3, .f32⟩ : BufTy).Contents (Elt Ideal)) (b : Fin 8) (n m : Fin 4096) :
    val_main_v4 (F := Ideal) x y (ix3 b n m) = Cert.Chamfer.inner x y b n m := by
  rw [val_main_v4_apply]
  unfold Cert.Chamfer.inner
  refine Finset.sum_congr rfl fun d _ => ?_
  have el : lidx_main_v4 (ix3 b n m) d = ix3 b n d :=
    funext fun a => Fin.ext (by match a with | ⟨0, _⟩ => rfl | ⟨1, _⟩ => rfl | ⟨2, _⟩ => rfl)
  have er : ridx_main_v4 (ix3 b n m) d = ix3 b m d :=
    funext fun a => Fin.ext (by match a with | ⟨0, _⟩ => rfl | ⟨1, _⟩ => rfl | ⟨2, _⟩ => rfl)
  rw [el, er]

/-- The array both minima are taken of is the expanded squared distance. -/
theorem v12_apply (x y : (⟨S8x4096x3, .f32⟩ : BufTy).Contents (Elt Ideal)) (b : Fin 8) (n m : Fin 4096) :
    val_main_v12 (F := Ideal) x y (ix3 b n m) = Cert.Chamfer.pd x y b n m := by
  rw [val_main_v12_apply, val_main_v9_apply, val_main_v11_apply, val_main_v7_apply, val_main_v8_apply,
    val_main_v5_apply, val_main_v6_apply, val_main_v10_apply, val_main_cst_1_apply]
  have e1 : idx_main_v5 (idx_main_v7 (ix3 b n m)) = ix2 b n :=
    funext fun a => Fin.ext (by match a with | ⟨0, _⟩ => rfl | ⟨1, _⟩ => rfl)
  have e2 : idx_main_v6 (idx_main_v8 (ix3 b n m)) = ix2 b m :=
    funext fun a => Fin.ext (by match a with | ⟨0, _⟩ => rfl | ⟨1, _⟩ => rfl)
  rw [e1, e2, v1_ix2, v3_ix2, v4_ix3]
  rfl

/-- The last axis dropped: what remains of an index of the three-axis array is its first two coordinates. -/
theorem red2 : S8x4096x4096.Reduces [2] S8x4096 := by decide

/-- The middle axis dropped. -/
theorem red1 : S8x4096x4096.Reduces [1] S8x4096 := by decide

/-- The first result: at `(b, n)` the least of the distances from point `n` of `x` to the points of `y`. -/
theorem ref1_eq (x y : (⟨S8x4096x3, .f32⟩ : BufTy).Contents (Elt Ideal)) :
    val_main_v13 (F := Ideal) x y = Cert.Chamfer.out1 x y := by
  funext i
  obtain ⟨b, n, rfl⟩ : ∃ (b : Fin 8) (n : Fin 4096), i = ix2 b n := ⟨i 0, i 1, eq_ix2 i⟩
  rw [Cert.Chamfer.out1_ix2]
  unfold Cert.Chamfer.dist1 val_main_v13
  have hz : ∀ (b : Fin 8) (n m : Fin 4096), val_main_v12 (F := Ideal) x y (ix3 b n m) = Cert.Chamfer.pd x y b n m :=
    v12_apply x y
  generalize val_main_v12 (F := Ideal) x y = z at hz ⊢
  refine (Host.reduce_eq_fold_single (FloatOps.minimumf (F := Ideal) (φ := .f32)) z _
    reducesTo_S8x4096x4096_S8x4096_d2 red2 h_S_ (ix2 b n)).trans ?_
  show (Finset.univ : Finset (Fin 4096)).fold min Cert.Chamfer.top (z ∘ red2.lift (ix2 b n)) = _
  refine Finset.fold_congr fun m _ => ?_
  rw [← hz b n m]
  exact congrArg z (funext fun a => Fin.ext (by match a with | ⟨0, _⟩ => rfl | ⟨1, _⟩ => rfl | ⟨2, _⟩ => rfl))

/-- The second result: at `(b, m)` the least of the distances from point `m` of `y` to the points of `x`. -/
theorem ref2_eq (x y : (⟨S8x4096x3, .f32⟩ : BufTy).Contents (Elt Ideal)) :
    val_main_v14 (F := Ideal) x y = Cert.Chamfer.out2 x y := by
  funext i
  obtain ⟨b, m, rfl⟩ : ∃ (b : Fin 8) (m : Fin 4096), i = ix2 b m := ⟨i 0, i 1, eq_ix2 i⟩
  rw [Cert.Chamfer.out2_ix2]
  unfold Cert.Chamfer.dist2 val_main_v14
  have hz : ∀ (b : Fin 8) (n m : Fin 4096), val_main_v12 (F := Ideal) x y (ix3 b n m) = Cert.Chamfer.pd x y b n m :=
    v12_apply x y
  generalize val_main_v12 (F := Ideal) x y = z at hz ⊢
  refine (Host.reduce_eq_fold_single (FloatOps.minimumf (F := Ideal) (φ := .f32)) z _
    reducesTo_S8x4096x4096_S8x4096_d1 red1 h_S_ (ix2 b m)).trans ?_
  show (Finset.univ : Finset (Fin 4096)).fold min Cert.Chamfer.top (z ∘ red1.lift (ix2 b m)) = _
  refine Finset.fold_congr fun n _ => ?_
  rw [← hz b n m]
  exact congrArg z (funext fun a => Fin.ext (by match a with | ⟨0, _⟩ => rfl | ⟨1, _⟩ => rfl | ⟨2, _⟩ => rfl))

end Cert.Chamfer.Ref

end
-- ==== Proof.lean ====
/-
  The certificate of the chamfer-distance kernel against its reference, on the extended reals.

  Both programs compute, for two clouds of eight batches of 4096 points in three coordinates, the expanded squared
  distances |x|² + |y|² − 2·⟨x, y⟩ and their minima along each cloud. The kernel walks a grid of eight batches by four
  steps of 1024 columns, keeps running row minima in a scratch buffer across a batch's steps, and writes the column minima
  step by step; the reference forms the whole [8, 4096, 4096] array and reduces it twice. Sums of three terms and minima
  are the same however they are grouped, so no finiteness of the inputs is used. The three frames come from the runs of the
  three programs; the idealization rewrote nothing, so its conjunct is trivial.
-/
import proofs.«180873_g88837103551002_cont_sun_m_1114_24_alg».proof.Defs
import proofs.«180873_g88837103551002_cont_sun_m_1114_24_alg».proof.Proof.Gen.Kernel
import proofs.«180873_g88837103551002_cont_sun_m_1114_24_alg».proof.Proof.Gen.KernelIdeal
import proofs.«180873_g88837103551002_cont_sun_m_1114_24_alg».proof.Proof.Gen.ReferenceIdeal
import proofs.«180873_g88837103551002_cont_sun_m_1114_24_alg».proof.Proof.Gen.Pre_finite_inputs
import proofs.«180873_g88837103551002_cont_sun_m_1114_24_alg».proof.Proof.Gen.ReferenceIdeal.Run
import proofs.«180873_g88837103551002_cont_sun_m_1114_24_alg».proof.Proof.K.Run
import proofs.«180873_g88837103551002_cont_sun_m_1114_24_alg».proof.Proof.KI.Value
import proofs.«180873_g88837103551002_cont_sun_m_1114_24_alg».proof.Proof.Ref

noncomputable section

namespace Cert.Proof

open Idealize.ShloMosaic Idealize.SL.Sem

theorem frame_k : Cert.frame_Kernel := fun m ρ _ => Cert.Kernel.Body.frame m ρ

theorem frame_ki : Cert.frame_KernelIdeal := fun m ρ _ => Cert.KernelIdeal.Body.frame m ρ

/-- The reference's frame is its run with the results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- Both programs end with the distances of the specification, of arguments that agree. -/
theorem algebraic : Cert.algebraic_KernelIdeal_ReferenceIdeal := by
  intro m ρ m' ρ' _ hagree
  refine ⟨fun c => Cert.Chamfer.out1 (Cert.KernelIdeal.Val.X m c) (Cert.KernelIdeal.Val.Y m c),
    fun c => Cert.Chamfer.out2 (Cert.KernelIdeal.Val.X m c) (Cert.KernelIdeal.Val.Y m c),
    Cert.KernelIdeal.Val.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · rw [(hagree c).1, (hagree c).2]
    exact (Cert.ReferenceIdeal.Read.val_main_v13_eq _ _).trans (Cert.Chamfer.Ref.ref1_eq _ _)
  · rw [(hagree c).1, (hagree c).2]
    exact (Cert.ReferenceIdeal.Read.val_main_v14_eq _ _).trans (Cert.Chamfer.Ref.ref2_eq _ _)

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
